-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S512x32 : Shape := ⟨2, ![512, 32]⟩
abbrev S32x16 : Shape := ⟨2, ![32, 16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S10000x512 .f32) (main_arg1 : FVec F S320000 .f32) (main_arg2 : FVec F S512x32 .f32) (main_arg3 : FVec F S32x16 .f32) (main_arg4 : IVec S320000 32) (main_arg5 : IVec S320000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S10000x512 : Shape := ⟨2, ![10000, 512]⟩
abbrev S320000 : Shape := ⟨1, ![320000]⟩
abbrev S512x32 : Shape := ⟨2, ![512, 32]⟩
abbrev S32x16 : Shape := ⟨2, ![32, 16]⟩
abbrev S10000x32 : Shape := ⟨2, ![10000, 32]⟩
abbrev S2000x512 : Shape := ⟨2, ![2000, 512]⟩
abbrev S2000x32 : Shape := ⟨2, ![2000, 32]⟩
abbrev S320000x1 : Shape := ⟨2, ![320000, 1]⟩
abbrev S_ : Shape := ⟨0, ![]⟩
abbrev S320000x32 : Shape := ⟨2, ![320000, 32]⟩
abbrev S10000x16 : Shape := ⟨2, ![10000, 16]⟩
abbrev S2000x16 : Shape := ⟨2, ![2000, 16]⟩
abbrev S320000x16 : Shape := ⟨2, ![320000, 16]⟩
abbrev S10000x10000 : Shape := ⟨2, ![10000, 10000]⟩
abbrev S400x16 : Shape := ⟨2, ![400, 16]⟩
abbrev S400x10000 : Shape := ⟨2, ![400, 10000]⟩
abbrev S100000000 : Shape := ⟨1, ![100000000]⟩

abbrev nBuf : Space → Nat
  | .hbm => 45
  | .vmem => 15
  | .smem => 0
  | _ => 0

abbrev bufTy : (tb : Table) → Fin (tcTables nBuf tb) → BufTy
  | .hbm, ⟨0, _⟩ => ⟨S10000x512, .f32⟩
  | .hbm, ⟨1, _⟩ => ⟨S320000, .f32⟩
  | .hbm, ⟨2, _⟩ => ⟨S512x32, .f32⟩
  | .hbm, ⟨3, _⟩ => ⟨S32x16, .f32⟩
  | .hbm, ⟨4, _⟩ => ⟨S320000, .i32⟩
  | .hbm, ⟨5, _⟩ => ⟨S320000, .i32⟩
  | .hbm, ⟨6, _⟩ => ⟨S10000x32, .f32⟩
  | .hbm, ⟨7, _⟩ => ⟨S320000x1, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x32, .f32⟩
  | .hbm, ⟨17, _⟩ => ⟨S320000x32, .f32⟩
  | .hbm, ⟨18, _⟩ => ⟨S320000x32, .f32⟩
  | .hbm, ⟨19, _⟩ => ⟨S_, .f32⟩
  | .hbm, ⟨20, _⟩ => ⟨S10000x32, .f32⟩
  | .hbm, ⟨21, _⟩ => ⟨S320000x1, .i32⟩
  | .hbm, ⟨22, _⟩ => ⟨S10000x32, .f32⟩
  | .hbm, ⟨23, _⟩ => ⟨S_, .f32⟩
  | .hbm, ⟨24, _⟩ => ⟨S10000x32, .f32⟩
  | .hbm, ⟨25, _⟩ => ⟨S10000x32, .f32⟩
  | .hbm, ⟨26, _⟩ => ⟨S10000x16, .f32⟩
  | .hbm, ⟨27, _⟩ => ⟨S320000x1, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x16, .f32⟩
  | .hbm, ⟨37, _⟩ => ⟨S320000x16, .f32⟩
  | .hbm, ⟨38, _⟩ => ⟨S320000x16, .f32⟩
  | .hbm, ⟨39, _⟩ => ⟨S_, .f32⟩
  | .hbm, ⟨40, _⟩ => ⟨S10000x16, .f32⟩
  | .hbm, ⟨41, _⟩ => ⟨S320000x1, .i32⟩
  | .hbm, ⟨42, _⟩ => ⟨S10000x16, .f32⟩
  | .hbm, ⟨43, _⟩ => ⟨S10000x10000, .f32⟩
  | .hbm, ⟨44, _⟩ => ⟨S100000000, .f32⟩
  | .local _ .vmem, ⟨0, _⟩ => ⟨S2000x512, .f32⟩
  | .local _ .vmem, ⟨1, _⟩ => ⟨S2000x512, .f32⟩
  | .local _ .vmem, ⟨2, _⟩ => ⟨S512x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x16, .f32⟩
  | .local _ .vmem, ⟨8, _⟩ => ⟨S2000x16, .f32⟩
  | .local _ .vmem, ⟨9, _⟩ => ⟨S2000x16, .f32⟩
  | .local _ .vmem, ⟨10, _⟩ => ⟨S400x16, .f32⟩
  | .local _ .vmem, ⟨11, _⟩ => ⟨S400x16, .f32⟩
  | .local _ .vmem, ⟨12, _⟩ => ⟨S10000x16, .f32⟩
  | .local _ .vmem, ⟨13, _⟩ => ⟨S400x10000, .f32⟩
  | .local _ .vmem, ⟨14, _⟩ => ⟨S400x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x32_S512x32_0_0 : ∀ a, (![0, 0] : Fin 2 → Nat) a + S512x32.size a ≤ S512x32.size a
  h_S512x32 : 0 < S512x32.numel
  inb_S2000x32_S2000x32_0_0 : ∀ a, (![0, 0] : Fin 2 → Nat) a + S2000x32.size a ≤ S2000x32.size a
  h_S2000x32 : 0 < S2000x32.numel
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S320000x1_S320000x16_0_1 : S320000x1.BroadcastsInDim S320000x16 (![0, 1] : Fin 2 → Fin S320000x16.rank)
  bcast_S_S10000x16 : S_.BroadcastsInDim S10000x16 (![] : Fin 0 → Fin S10000x16.rank)
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  shapeCasts_S10000x10000_S100000000 : S10000x10000.ShapeCasts S100000000
  dot_S2000x512_S512x32_S2000x32_1_0_0_1_n_n_wf : DotDims.WF S2000x512 S512x32 S2000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S2000x32_S32x16_S2000x16_1_0_0_1_n_n_wf : DotDims.WF S2000x32 S32x16 S2000x16 [1] [0] [0] [1] [] []
  gather_S10000x16_S320000x1_S320000x16_1_0_n_n_0_1_116_wf : GatherDims.WF S10000x16 S320000x1 S320000x16 [1] [0] [] [0] [] 1 ![1, 16]
  scatter_S10000x16_S320000x1_S320000x16_1_0_0_1_wf : ScatterDims.WF S10000x16 S320000x1 S320000x16 [1] [0] [0] 1
  dot_S400x16_S10000x16_S400x10000_1_1_0_0_n_n_wf : DotDims.WF S400x16 S10000x16 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S10000x32.size a
  hwx0_2 : ∀ i : grid0.Coords, EltTy.bits .f32 = 32 ∨ (Rect.block (s := S10000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S10000x32.size a
  hwx1_0 : ∀ i : grid1.Coords, EltTy.bits .f32 = 32 ∨ (Rect.block (s := S10000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S10000x16.size a
  hwx1_2 : ∀ i : grid1.Coords, EltTy.bits .f32 = 32 ∨ (Rect.block (s := S10000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x16.size a ≤ S10000x16.size a
  hwx2_0 : ∀ i : grid2.Coords, EltTy.bits .f32 = 32 ∨ (Rect.block (s := S10000x16) S400x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10000.size a ≤ S10000x10000.size a
  hwx2_2 : ∀ i : grid2.Coords, EltTy.bits .f32 = 32 ∨ (Rect.block (s := S10000x10000) S400x10000.size (cc2_transform_2 i) (hinb2_2 i)).WholeWords (EltTy.packing .f32)

variable [Facts₀]

def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S10000x16_S320000x1_S320000x16_1_0_n_n_0_1_116 : GatherDims S10000x16 S320000x1 S320000x16 where
  offsetDims := [1]
  collapsedSliceDims := [0]
  operandBatchingDims := []
  startIndicesBatchingDims := []
  startIndexMap := [0]
  indexVectorDim := 1
  sliceSizes := ![1, 16]
  wf := gather_S10000x16_S320000x1_S320000x16_1_0_n_n_0_1_116_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S400x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S400x10000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S320000 : Shape := ⟨1, ![320000]⟩
abbrev S512x32 : Shape := ⟨2, ![512, 32]⟩
abbrev S32x16 : Shape := ⟨2, ![32, 16]⟩
abbrev S10000x32 : Shape := ⟨2, ![10000, 32]⟩
abbrev S320000x1 : Shape := ⟨2, ![320000, 1]⟩
abbrev S_ : Shape := ⟨0, ![]⟩
abbrev S320000x32 : Shape := ⟨2, ![320000, 32]⟩
abbrev S10000x16 : Shape := ⟨2, ![10000, 16]⟩
abbrev S320000x16 : Shape := ⟨2, ![320000, 16]⟩
abbrev S16x10000 : Shape := ⟨2, ![16, 10000]⟩
abbrev S10000x10000 : Shape := ⟨2, ![10000, 10000]⟩
abbrev S100000000 : Shape := ⟨1, ![100000000]⟩

abbrev nBuf : Space → Nat
  | .hbm => 46
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S320000, .f32⟩
  | .hbm, ⟨2, _⟩ => ⟨S512x32, .f32⟩
  | .hbm, ⟨3, _⟩ => ⟨S32x16, .f32⟩
  | .hbm, ⟨4, _⟩ => ⟨S320000, .i32⟩
  | .hbm, ⟨5, _⟩ => ⟨S320000, .i32⟩
  | .hbm, ⟨6, _⟩ => ⟨S10000x32, .f32⟩
  | .hbm, ⟨7, _⟩ => ⟨S320000x1, .f32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x32, .f32⟩
  | .hbm, ⟨17, _⟩ => ⟨S320000x32, .f32⟩
  | .hbm, ⟨18, _⟩ => ⟨S320000x32, .f32⟩
  | .hbm, ⟨19, _⟩ => ⟨S_, .f32⟩
  | .hbm, ⟨20, _⟩ => ⟨S10000x32, .f32⟩
  | .hbm, ⟨21, _⟩ => ⟨S320000x1, .i32⟩
  | .hbm, ⟨22, _⟩ => ⟨S10000x32, .f32⟩
  | .hbm, ⟨23, _⟩ => ⟨S_, .f32⟩
  | .hbm, ⟨24, _⟩ => ⟨S10000x32, .f32⟩
  | .hbm, ⟨25, _⟩ => ⟨S10000x32, .f32⟩
  | .hbm, ⟨26, _⟩ => ⟨S10000x16, .f32⟩
  | .hbm, ⟨27, _⟩ => ⟨S320000x1, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x16, .f32⟩
  | .hbm, ⟨37, _⟩ => ⟨S320000x16, .f32⟩
  | .hbm, ⟨38, _⟩ => ⟨S320000x16, .f32⟩
  | .hbm, ⟨39, _⟩ => ⟨S_, .f32⟩
  | .hbm, ⟨40, _⟩ => ⟨S10000x16, .f32⟩
  | .hbm, ⟨41, _⟩ => ⟨S320000x1, .i32⟩
  | .hbm, ⟨42, _⟩ => ⟨S10000x16, .f32⟩
  | .hbm, ⟨43, _⟩ => ⟨S16x10000, .f32⟩
  | .hbm, ⟨44, _⟩ => ⟨S10000x10000, .f32⟩
  | .hbm, ⟨45, _⟩ => ⟨S100000000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x32_0_1 : S320000x1.BroadcastsInDim S320000x32 (![0, 1] : Fin 2 → Fin S320000x32.rank)
  bcast_S_S10000x32 : S_.BroadcastsInDim S10000x32 (![] : Fin 0 → Fin S10000x32.rank)
  bcast_S320000x1_S320000x16_0_1 : S320000x1.BroadcastsInDim S320000x16 (![0, 1] : Fin 2 → Fin S320000x16.rank)
  bcast_S_S10000x16 : S_.BroadcastsInDim S10000x16 (![] : Fin 0 → Fin S10000x16.rank)
  transposes_S10000x16_S16x10000_1_0 : S10000x16.Transposes [1, 0] S16x10000
  shapeCasts_S10000x10000_S100000000 : S10000x10000.ShapeCasts S100000000
  dot_S10000x512_S512x32_S10000x32_1_0_0_1_n_n_wf : DotDims.WF S10000x512 S512x32 S10000x32 [1] [0] [0] [1] [] []
  gather_S10000x32_S320000x1_S320000x32_1_0_n_n_0_1_132_wf : GatherDims.WF S10000x32 S320000x1 S320000x32 [1] [0] [] [0] [] 1 ![1, 32]
  scatter_S10000x32_S320000x1_S320000x32_1_0_0_1_wf : ScatterDims.WF S10000x32 S320000x1 S320000x32 [1] [0] [0] 1
  dot_S10000x32_S32x16_S10000x16_1_0_0_1_n_n_wf : DotDims.WF S10000x32 S32x16 S10000x16 [1] [0] [0] [1] [] []
  gather_S10000x16_S320000x1_S320000x16_1_0_n_n_0_1_116_wf : GatherDims.WF S10000x16 S320000x1 S320000x16 [1] [0] [] [0] [] 1 ![1, 16]
  scatter_S10000x16_S320000x1_S320000x16_1_0_0_1_wf : ScatterDims.WF S10000x16 S320000x1 S320000x16 [1] [0] [0] 1
  dot_S10000x16_S16x10000_S10000x10000_1_0_0_1_n_n_wf : DotDims.WF S10000x16 S16x10000 S10000x10000 [1] [0] [0] [1] [] []

variable [Facts₀]

def dot_S10000x512_S512x32_S10000x32_1_0_0_1_n_n : DotDims S10000x512 S512x32 S10000x32 where
  lhsContracting := [1]
  rhsContracting := [0]
  lhsNonContracting := [0]
  rhsNonContracting := [1]
  lhsBatch := []
  rhsBatch := []
  wf := dot_S10000x512_S512x32_S10000x32_1_0_0_1_n_n_wf
def gather_S10000x32_S320000x1_S320000x32_1_0_n_n_0_1_132 : GatherDims S10000x32 S320000x1 S320000x32 where
  offsetDims := [1]
  collapsedSliceDims := [0]
  operandBatchingDims := []
  startIndicesBatchingDims := []
  startIndexMap := [0]
  indexVectorDim := 1
  sliceSizes := ![1, 32]
  wf := gather_S10000x32_S320000x1_S320000x32_1_0_n_n_0_1_132_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S10000x16_S320000x1_S320000x16_1_0_n_n_0_1_116 : GatherDims S10000x16 S320000x1 S320000x16 where
  offsetDims := [1]
  collapsedSliceDims := [0]
  operandBatchingDims := []
  startIndicesBatchingDims := []
  startIndexMap := [0]
  indexVectorDim := 1
  sliceSizes := ![1, 16]
  wf := gather_S10000x16_S320000x1_S320000x16_1_0_n_n_0_1_116_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.KBody0.lean ====
/-
  Kernel region 0: what one grid point does to the staged blocks, and the region's proof data.

  At a grid point the body reads its two input blocks whole, forms their matrix product into a zero accumulator —
  a block of 2000 rows of the left operand times the whole right operand (512 rows, 32 columns) — and overwrites the whole output block with it.  So after the body the two input buffers hold what they
  held, and the output buffer holds that product of the two input blocks, whatever it held before.  The proof data
  record this for every point: the arrays as the region finds them, each input buffer at its block of its array,
  the output buffer at the product of the two input blocks, nothing owed.
-/
import proofs.«127594_j31439160606755_1_alg».proof.Proof.Gen.Kernel.Launch
import proofs.«127594_j31439160606755_1_alg».proof.Proof.Gen.Kernel.Skeleton
import proofs.«127594_j31439160606755_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block (the whole array) at every point: it is fetched once and its
    index never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev ra : Rect S2000x512 := Rect.unit (s := S2000x512) ![0, 0] S2000x512.size inb_S2000x512_S2000x512_0_0
abbrev rb : Rect S512x32 := Rect.unit (s := S512x32) ![0, 0] S512x32.size inb_S512x32_S512x32_0_0
abbrev ro : Rect S2000x32 := Rect.unit (s := S2000x32) ![0, 0] S2000x32.size inb_S2000x32_S2000x32_0_0

/-- The output buffer after the body: its one store, of the product of the two input blocks. -/
def out (x0 : Vec F S2000x512 .f32) (x1 : Vec F S512x32 .f32) : Vec F S2000x32 .f32 :=
  View.canon [⟨ro, k0_pay1 (View.ld x0 ra) (View.ld x1 rb)⟩]

/-- The one store covers the whole output buffer. -/
theorem cover (p0 : Vec F S2000x32 .f32) (y : S2000x32.Idx) :
    ∃ pc ∈ ([⟨ro, p0⟩] : List (View.Piece (Elt F) S2000x32 .f32)), y ∈ pc.1.set :=
  View.cover_of_tiled [⟨ro, p0⟩] S2000x32.size (by rfl) y

set_option maxHeartbeats 1000000 in
/-- The body on whole staging buffers, the inputs at x0 and x1 and the output at anything: it ends with the inputs as
    they were and the output at the product. -/
theorem sound_kernel (c : Dev nD) (E : Set ℕ) (i : grid0.Coords) (arg1 : Memref sig .tc .vmem S2000x512 .f32) (harg1 : arg1.IsWhole) (arg2 : Memref sig .tc .vmem S512x32 .f32) (harg2 : arg2.IsWhole) (arg3 : Memref sig .tc .vmem S2000x32 .f32) (harg3 : arg3.IsWhole)
    (x0 : Vec F S2000x512 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core c: the arrays as the region finds them; after the body at point t each input
    buffer at its block and the output buffer at the product of the two input blocks; the plain class invariant;
    nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q := fun _ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the input buffers hold their blocks, so the triple above applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.KBody1.lean ====
/-
  Kernel region 1: what one grid point does to the staged blocks, and the region's proof data.

  At a grid point the body reads its two input blocks whole, forms their matrix product into a zero accumulator —
  a block of 2000 rows of the left operand times the whole right operand (32 rows, 16 columns) — and overwrites the whole output block with it.  So after the body the two input buffers hold what they
  held, and the output buffer holds that product of the two input blocks, whatever it held before.  The proof data
  record this for every point: the arrays as the region finds them, each input buffer at its block of its array,
  the output buffer at the product of the two input blocks, nothing owed.
-/
import proofs.«127594_j31439160606755_1_alg».proof.Proof.Gen.Kernel.Launch
import proofs.«127594_j31439160606755_1_alg».proof.Proof.Gen.Kernel.Skeleton
import proofs.«127594_j31439160606755_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block (the whole array) at every point: it is fetched once and its
    index never moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev ra : Rect S2000x32 := Rect.unit (s := S2000x32) ![0, 0] S2000x32.size inb_S2000x32_S2000x32_0_0
abbrev rb : Rect S32x16 := Rect.unit (s := S32x16) ![0, 0] S32x16.size inb_S32x16_S32x16_0_0
abbrev ro : Rect S2000x16 := Rect.unit (s := S2000x16) ![0, 0] S2000x16.size inb_S2000x16_S2000x16_0_0

/-- The output buffer after the body: its one store, of the product of the two input blocks. -/
def out (x0 : Vec F S2000x32 .f32) (x1 : Vec F S32x16 .f32) : Vec F S2000x16 .f32 :=
  View.canon [⟨ro, k1_pay1 (View.ld x0 ra) (View.ld x1 rb)⟩]

/-- The one store covers the whole output buffer. -/
theorem cover (p0 : Vec F S2000x16 .f32) (y : S2000x16.Idx) :
    ∃ pc ∈ ([⟨ro, p0⟩] : List (View.Piece (Elt F) S2000x16 .f32)), y ∈ pc.1.set :=
  View.cover_of_tiled [⟨ro, p0⟩] S2000x16.size (by rfl) y

set_option maxHeartbeats 1000000 in
/-- The body on whole staging buffers, the inputs at x0 and x1 and the output at anything: it ends with the inputs as
    they were and the output at the product. -/
theorem sound_kernel (c : Dev nD) (E : Set ℕ) (i : grid1.Coords) (arg1 : Memref sig .tc .vmem S2000x32 .f32) (harg1 : arg1.IsWhole) (arg2 : Memref sig .tc .vmem S32x16 .f32) (harg2 : arg2.IsWhole) (arg3 : Memref sig .tc .vmem S2000x16 .f32) (harg3 : arg3.IsWhole)
    (x0 : Vec F S2000x32 .f32) (x1 : Vec F S32x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core c: the arrays as the region finds them; after the body at point t each input
    buffer at its block and the output buffer at the product of the two input blocks; the plain class invariant;
    nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q := fun _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the input buffers hold their blocks, so the triple above applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.KBody2.lean ====
/-
  Kernel region 2: what one grid point does to the staged blocks, and the region's proof data.

  At a grid point the body reads its two input blocks whole, forms their matrix product into a zero accumulator —
  a block of 400 rows of the embedding against all 10000 rows of the same embedding (the second operand read along its rows) — and overwrites the whole output block with it.  So after the body the two input buffers hold what they
  held, and the output buffer holds that product of the two input blocks, whatever it held before.  The proof data
  record this for every point: the arrays as the region finds them, each input buffer at its block of its array,
  the output buffer at the product of the two input blocks, nothing owed.
-/
import proofs.«127594_j31439160606755_1_alg».proof.Proof.Gen.Kernel.Launch
import proofs.«127594_j31439160606755_1_alg».proof.Proof.Gen.Kernel.Skeleton
import proofs.«127594_j31439160606755_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block (the whole array) at every point: it is fetched once and its
    index never moves. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev ra : Rect S400x16 := Rect.unit (s := S400x16) ![0, 0] S400x16.size inb_S400x16_S400x16_0_0
abbrev rb : Rect S10000x16 := Rect.unit (s := S10000x16) ![0, 0] S10000x16.size inb_S10000x16_S10000x16_0_0
abbrev ro : Rect S400x10000 := Rect.unit (s := S400x10000) ![0, 0] S400x10000.size inb_S400x10000_S400x10000_0_0

/-- The output buffer after the body: its one store, of the product of the two input blocks. -/
def out (x0 : Vec F S400x16 .f32) (x1 : Vec F S10000x16 .f32) : Vec F S400x10000 .f32 :=
  View.canon [⟨ro, k2_pay1 (View.ld x0 ra) (View.ld x1 rb)⟩]

/-- The one store covers the whole output buffer. -/
theorem cover (p0 : Vec F S400x10000 .f32) (y : S400x10000.Idx) :
    ∃ pc ∈ ([⟨ro, p0⟩] : List (View.Piece (Elt F) S400x10000 .f32)), y ∈ pc.1.set :=
  View.cover_of_tiled [⟨ro, p0⟩] S400x10000.size (by rfl) y

set_option maxHeartbeats 1000000 in
/-- The body on whole staging buffers, the inputs at x0 and x1 and the output at anything: it ends with the inputs as
    they were and the output at the product. -/
theorem sound_kernel (c : Dev nD) (E : Set ℕ) (i : grid2.Coords) (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc2__innerprod_kernel i arg1 harg1 arg2 harg2 arg3 harg3) K := by
  simp only [cc2__innerprod_kernel_eq_skeleton]; unfold cc2__innerprod_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core c: the arrays as the region finds them; after the body at point t each input
    buffer at its block and the output buffer at the product of the two input blocks; the plain class invariant;
    nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q := fun w => match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out (iblk V c 0 t) (iblk V c 1 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point t, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the input buffers hold their blocks, so the triple above applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid2.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W2, bigSep_W2]
  exact sound_body V c t

end Cert.Kernel.Region2

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.KVals.lean ====
/-
  The buffers' contents at every boundary of the program.

  The program is three kernel regions among stretches of host operations.  Between two of these items a core holds
  every unscoped buffer at a valuation.  From the launch memory: region 0 writes the first product into its output
  array and nothing else; the first host stretch (the edge aggregation) and the maximum with zero run over that;
  region 1 writes the second product; the second host stretch runs; region 2 writes the array of inner products; the
  last operation flattens it.  A region changes only its output array, which ends at what its write-backs leave
  (the proof data's array after the last grid point); a host stretch changes only the buffers it writes.  Hence no
  argument array is ever changed.
-/
import proofs.«127594_j31439160606755_1_alg».proof.Proof.Gen.Kernel.Regions
import proofs.«127594_j31439160606755_1_alg».proof.Proof.KBody0
import proofs.«127594_j31439160606755_1_alg».proof.Proof.KBody1
import proofs.«127594_j31439160606755_1_alg».proof.Proof.KBody2
import proofs.«127594_j31439160606755_1_alg».proof.Proof.LibRegionRecord

noncomputable section

namespace Cert.Kernel.Run

open Cert.Kernel Cert.Kernel.Gen
open Idealize.ShloMosaic Idealize.ShloMosaic.TcCoe
open Idealize.SL Idealize.SL.Sem
open Idealize.ShloMosaic.Pipeline (Dat)
open RegionRecord (tcVal)

variable {F : FTy → Type} [FloatOps F]
variable (m : (ℓ : Loc nD τ sig) → Buf (Elt F) ℓ)

/-- At launch. -/
abbrev W0 (c : Dev nD) : Valuation τ sig (Elt F) := fun b => m (c, b)

/-- What region 0 leaves in its output array: the first product, block by block. -/
def arr0 (c : Dev nD) : Buf (Elt F) ((c : Thread nD τ).loc main_v0) := (Region0.dat (tcVal (W0 m)) c).arrAt 2 cfg0.N
/-- After region 0. -/
def W1 (c : Dev nD) : Valuation τ sig (Elt F) := Function.update (W0 m c) main_v0 (arr0 m c)
/-- After the first host stretch (the aggregation over the edges). -/
abbrev W2 (c : Dev nD) : Valuation τ sig (Elt F) := StableHlo.after hostOps1 (W1 m c)
/-- After the maximum with zero. -/
abbrev W3 (c : Dev nD) : Valuation τ sig (Elt F) := StableHlo.after hostOps1_1 (W2 m c)

/-- What region 1 leaves in its output array: the second product. -/
def arr1 (c : Dev nD) : Buf (Elt F) ((c : Thread nD τ).loc main_v15) := (Region1.dat (tcVal (W3 m)) c).arrAt 2 cfg1.N
/-- After region 1. -/
def W4 (c : Dev nD) : Valuation τ sig (Elt F) := Function.update (W3 m c) main_v15 (arr1 m c)
/-- After the second host stretch. -/
abbrev W5 (c : Dev nD) : Valuation τ sig (Elt F) := StableHlo.after hostOps2 (W4 m c)

/-- What region 2 leaves in its output array: the inner products. -/
def arr2 (c : Dev nD) : Buf (Elt F) ((c : Thread nD τ).loc main_v29) := (Region2.dat (tcVal (W5 m)) c).arrAt 2 cfg2.N
/-- After region 2. -/
def W6 (c : Dev nD) : Valuation τ sig (Elt F) := Function.update (W5 m c) main_v29 (arr2 m c)
/-- At the end: after the flattening. -/
abbrev W7 (c : Dev nD) : Valuation τ sig (Elt F) := StableHlo.after hostOps3 (W6 m c)

/-! ## What each item leaves unchanged -/

theorem W1_out (c : Dev nD) : W1 m c main_v0 = arr0 m c := by unfold W1; exact Function.update_self ..
theorem W1_of (c : Dev nD) (r : Ref sig .tc) (h : r ≠ main_v0) : W1 m c r = W0 m c r := by
  unfold W1; exact Function.update_of_ne (StableHlo.devRef_ne_of_ne h) ..
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ∉ hostOps1_1_W) : W3 m c r = W2 m c r :=
  StableHlo.after_of_writes_sub hostOps1_1 _ hostOps1_1_writes h
theorem W4_out (c : Dev nD) : W4 m c main_v15 = arr1 m c := by unfold W4; exact Function.update_self ..
theorem W4_of (c : Dev nD) (r : Ref sig .tc) (h : r ≠ main_v15) : W4 m c r = W3 m c r := by
  unfold W4; exact Function.update_of_ne (StableHlo.devRef_ne_of_ne h) ..
theorem W5_of (c : Dev nD) (r : Ref sig .tc) (h : r ∉ hostOps2_W) : W5 m c r = W4 m c r :=
  StableHlo.after_of_writes_sub hostOps2 _ hostOps2_writes h
theorem W6_out (c : Dev nD) : W6 m c main_v29 = arr2 m c := by unfold W6; exact Function.update_self ..
theorem W6_of (c : Dev nD) (r : Ref sig .tc) (h : r ≠ main_v29) : W6 m c r = W5 m c r := by
  unfold W6; exact Function.update_of_ne (StableHlo.devRef_ne_of_ne h) ..
theorem W7_of (c : Dev nD) (r : Ref sig .tc) (h : r ∉ hostOps3_W) : W7 m c r = W6 m c r :=
  StableHlo.after_of_writes_sub hostOps3 _ hostOps3_writes h

/-- A buffer that no region writes back to and no host operation writes ends as launched. -/
theorem W7_untouched (c : Dev nD) (r : Ref sig .tc) (h0 : r ≠ main_v0) (h1 : r ∉ hostOps1_W) (h2 : r ∉ hostOps1_1_W)
    (h3 : r ≠ main_v15) (h4 : r ∉ hostOps2_W) (h5 : r ≠ main_v29) (h6 : r ∉ hostOps3_W) :
    W7 m c r = m ((c : Thread nD τ).loc r) :=
  (W7_of m c r h6).trans <| (W6_of m c r h5).trans <| (W5_of m c r h4).trans <| (W4_of m c r h3).trans <|
    (W3_of m c r h2).trans <| (W2_of m c r h1).trans <| (W1_of m c r h0).trans rfl

theorem W7_main_arg0 (c : Dev nD) : W7 m c main_arg0 = m ((c : Thread nD τ).loc main_arg0) :=
  W7_untouched m c main_arg0 (by decide) (by decide) (by decide) (by decide) (by decide) (by decide) (by decide)
theorem W7_main_arg1 (c : Dev nD) : W7 m c main_arg1 = m ((c : Thread nD τ).loc main_arg1) :=
  W7_untouched m c main_arg1 (by decide) (by decide) (by decide) (by decide) (by decide) (by decide) (by decide)
theorem W7_main_arg2 (c : Dev nD) : W7 m c main_arg2 = m ((c : Thread nD τ).loc main_arg2) :=
  W7_untouched m c main_arg2 (by decide) (by decide) (by decide) (by decide) (by decide) (by decide) (by decide)
theorem W7_main_arg3 (c : Dev nD) : W7 m c main_arg3 = m ((c : Thread nD τ).loc main_arg3) :=
  W7_untouched m c main_arg3 (by decide) (by decide) (by decide) (by decide) (by decide) (by decide) (by decide)
theorem W7_main_arg4 (c : Dev nD) : W7 m c main_arg4 = m ((c : Thread nD τ).loc main_arg4) :=
  W7_untouched m c main_arg4 (by decide) (by decide) (by decide) (by decide) (by decide) (by decide) (by decide)
theorem W7_main_arg5 (c : Dev nD) : W7 m c main_arg5 = m ((c : Thread nD τ).loc main_arg5) :=
  W7_untouched m c main_arg5 (by decide) (by decide) (by decide) (by decide) (by decide) (by decide) (by decide)

/-! ## The proof data family -/

/-- No pipeline has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (tcVal (W0 m)) c
  | ⟨1, _⟩ => fun c => Region1.dat (tcVal (W3 m)) c
  | ⟨2, _⟩ => fun c => Region2.dat (tcVal (W5 m)) c

end Cert.Kernel.Run

end
-- ==== Proof.LibSharedRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit
import proofs.«127594_j31439160606755_1_alg».proof.Proof.LibRegionRecord

/-!
# A kernel region's segment record when several input windows read one array

The thread state between two segments is as before: every unscoped TensorCore buffer of the core, whole, at a
valuation, beside the generator register and the core owing nothing.  Here the pipeline's windows need not sit on
distinct arrays: one array may be handed to the kernel through several input windows.  The core's unscoped buffers
then split into the DISTINCT buffers behind the windows' arrays, each whole, and the rest; how a buffer that several
windows read is dealt among them (each window a share of it) is the caller's to say, as two entailments: the distinct
buffers at the entry valuation yield the proof data's arrays at their entry contents, and the arrays at their final
contents yield the distinct buffers at the exit valuation.  The exit valuation agrees with the entry one off the arrays.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

section Shared

variable (pcs : P → PCfg sig Λ₀ Val) (a : (p : P) → (pcs p).Adm)
  (pdats : (p : P) → (c : Dev nD) → Dat τ Val Unit ℕ U ℕ (pin pcs a p) c)
  (p : P)
  (defs₀ : Defs nD τ sig Val Λ₀) (𝒱₀ : Variants)
  (W W' : Dev nD → Valuation τ sig Val)

-- the library's lemmas are stated over the pinned pipeline; matching it against the family's member takes unfolding
-- plain definitions inside a metavariable's type
set_option backward.isDefEq.respectTransparency.types false in
/-- The segment record of kernel region p between the valuations W and W', the windows' arrays not assumed distinct.
    `hsplit`: the distinct buffers behind the arrays, whole at W, yield the proof data's arrays at their entry
    contents.  `hjoin`: the arrays at their final contents yield those buffers whole at W'.  W' is W off the arrays. -/
def sharedRegionSeg
    (hw : WinFacts₀ (pcs p).spec) (hpre : PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c, (pdats p c).recorded 0 = Set.univ)
    (hpf : ∀ c k, tcVal W c ((pcs p).pre.ref k) = (a p).1 k)
    (hsplit : ∀ c, (arrBufs (Ix := Unit) (Name := ℕ) (U := U) (Lvl := ℕ) (pin pcs a p).spec c (tcVal W c) : sProp 𝕄)
      ⊢ (pdats p c).arrays ((pdats p c).arrAt · 0))
    (hjoin : ∀ c, (pdats p c).arrays ((pdats p c).arrAt · (pin pcs a p).N)
      ⊢ (arrBufs (Ix := Unit) (Name := ℕ) (U := U) (Lvl := ℕ) (pin pcs a p).spec c (tcVal W' c) : sProp 𝕄))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := hw
  block_pos := block_pos
  stage_whole := stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have h0 : (unscopedBufs (Ix := Unit) (Name := ℕ) (U := U) (Lvl := ℕ) c (tcVal W c) : sProp 𝕄)
        = iprop(arrBufs (pin pcs a p).spec c (tcVal W c) ∗ unscopedRest (pin pcs a p).spec c (tcVal W c)) :=
      unscopedBufs_split₀ (pin pcs a) p hw.arr_unscoped c (tcVal W c)
    rw [unscopedBufs_held, unscopedRest_split hpre c (tcVal W c),
      show (fun k => tcVal W c ((pcs p).pre.ref k)) = (a p).1 from funext (hpf c)] at h0
    iintro ⟨⟨Hub, Hp, HO⟩, -, -⟩
    ihave H := (Entails.of_eq h0) $$ Hub
    icases H with ⟨Ha, Ht, Hrest⟩
    ihave Ha' := (hsplit c) $$ Ha
    imodintro
    isplitl [Ha']; · iexact Ha'
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have h0 : (unscopedBufs (Ix := Unit) (Name := ℕ) (U := U) (Lvl := ℕ) c (tcVal W' c) : sProp 𝕄)
        = iprop(arrBufs (pin pcs a p).spec c (tcVal W' c) ∗ unscopedRest (pin pcs a p).spec c (tcVal W' c)) :=
      unscopedBufs_split₀ (pin pcs a) p hw.arr_unscoped c (tcVal W' c)
    have hr : (unscopedRest (Ix := Unit) (Name := ℕ) (U := U) (Lvl := ℕ) (pin pcs a p).spec c (tcVal W' c) : sProp 𝕄)
        = unscopedRest (pin pcs a p).spec c (tcVal W c) := by
      unfold unscopedRest
      exact bigSep_congr fun b hb => by rw [hrest c b (Finset.mem_sdiff.mp hb).2]
    rw [unscopedBufs_held, hr, unscopedRest_split hpre c (tcVal W c),
      show (fun k => tcVal W c ((pcs p).pre.ref k)) = (a p).1 from funext (hpf c)] at h0
    iintro ⟨Ha, HO, ⟨HY, Ht⟩, Hrest⟩
    ihave Ha' := (hjoin c) $$ Ha
    imodintro
    isplitl [Ha' Ht Hrest]
    · iapply (Entails.of_eq h0.symm)
      isplitl [Ha']; · iexact Ha'
      isplitl [Ht] <;> iassumption
    isplitl [HY]; · iexact HY
    unfold Dat.owesAt owesWithin
    rw [howed c (Fin.last _)]
    icases HO with ⟨%Wo, -, HO⟩; iexists Wo; iexact HO

end Shared

end RegionRecord

end
-- ==== Proof.KRecs.lean ====
/-
  The three kernel regions as segments of the program.

  Each region is entered with every unscoped buffer whole at the contents before it and left with every unscoped buffer
  whole at the contents after it: its output array at what the write-backs leave, everything else as entered.  Regions
  0 and 1 read two distinct arrays and write a third.  Region 2 reads ONE array, the embedding, through two windows — a
  block of 400 rows and the whole array — and writes the inner products: on entry the embedding's buffer is dealt to the
  two windows a half each, and on exit the two halves, both still holding the embedding, are put together again.
-/
import proofs.«127594_j31439160606755_1_alg».proof.Proof.KVals
import proofs.«127594_j31439160606755_1_alg».proof.Proof.LibRegionRecord
import proofs.«127594_j31439160606755_1_alg».proof.Proof.LibSharedRecord

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open RegionRecord (tcVal)

variable {F : FTy → Type} [FloatOps F]

local notation "𝕄" => MT nD τ sig Unit (Elt F) ℕ (UR sig nD τ) ℕ

variable (m : (ℓ : Loc nD τ sig) → Buf (Elt F) ℓ)

/-! ## Region 0 -/

theorem hF0 (c : Dev nD) (w : Fin cfg0.W) :
    (Region0.dat (tcVal (W0 m)) c).arrAt w cfg0.N = tcVal (W1 m) c (Pipeline.arrRef spec0 w) := by
  match w with
  | ⟨0, _⟩ => exact ((Region0.dat (tcVal (W0 m)) c).arrAt_in 0 rfl _).trans ((Region0.A_eq _ c 0).trans (W1_of m c main_arg0 (by decide)).symm)
  | ⟨1, _⟩ => exact ((Region0.dat (tcVal (W0 m)) c).arrAt_in 1 rfl _).trans ((Region0.A_eq _ c 1).trans (W1_of m c main_arg2 (by decide)).symm)
  | ⟨2, _⟩ => exact (W1_out m c).symm

theorem hrest0 (c : Dev nD) (b : Ref sig .tc) (hb : b ∉ Finset.univ.image (Pipeline.arrRef spec0)) :
    tcVal (W1 m) c b = tcVal (W0 m) c b :=
  W1_of m c b fun e => hb (Finset.mem_image.mpr ⟨2, Finset.mem_univ _, e.symm⟩)

set_option backward.isDefEq.respectTransparency.types false in
/-- Region 0 between the launch contents and the contents with the first product in place. -/
def reg0 : Pipeline.RegionSeg (pcfgs (F := F)) adm (pdats m) () defs₀ Variants.none (fun _ => ∅) (fun _ _ => 0) 0 :=
  RegionRecord.regionSeg (pcfgs (F := F)) adm (pdats m) 0 launch0.toP defs₀ Variants.none (W0 m) (W1 m)
    (fun c => (Region0.body_obligation (tcVal (W0 m)) c).loose)
    (fun c => (pdats m 0 c).share_full fun _ => rfl)
    (fun _ _ => rfl) (fun _ => rfl)
    (fun c w => Region0.A_eq _ c w)
    (fun _ k => k.elim0)
    (hF0 m) (hrest0 m)
    (fun c => by
      rw [show (pdats m 0 c).Φ 0 = Pipeline.ΦA spec0 c from rfl]
      iintro ⟨H, -⟩; iexact H)
    (fun c => by
      rw [show (pdats m 0 c).Φ (Fin.last _) = Pipeline.ΦA spec0 c from rfl]
      iintro H; isplitl [H]; · iexact H
      unfold Pipeline.prefHeld; rw [show (Finset.univ : Finset (Fin 0)) = ∅ from rfl, BI.bigSep_empty]; iempintro)

/-! ## Region 1 -/

theorem hF1 (c : Dev nD) (w : Fin cfg1.W) :
    (Region1.dat (tcVal (W3 m)) c).arrAt w cfg1.N = tcVal (W4 m) c (Pipeline.arrRef spec1 w) := by
  match w with
  | ⟨0, _⟩ => exact ((Region1.dat (tcVal (W3 m)) c).arrAt_in 0 rfl _).trans ((Region1.A_eq _ c 0).trans (W4_of m c main_v14 (by decide)).symm)
  | ⟨1, _⟩ => exact ((Region1.dat (tcVal (W3 m)) c).arrAt_in 1 rfl _).trans ((Region1.A_eq _ c 1).trans (W4_of m c main_arg3 (by decide)).symm)
  | ⟨2, _⟩ => exact (W4_out m c).symm

theorem hrest1 (c : Dev nD) (b : Ref sig .tc) (hb : b ∉ Finset.univ.image (Pipeline.arrRef spec1)) :
    tcVal (W4 m) c b = tcVal (W3 m) c b :=
  W4_of m c b fun e => hb (Finset.mem_image.mpr ⟨2, Finset.mem_univ _, e.symm⟩)

set_option backward.isDefEq.respectTransparency.types false in
/-- Region 1 between the contents after the first layer and those with the second product in place. -/
def reg1 : Pipeline.RegionSeg (pcfgs (F := F)) adm (pdats m) () defs₀ Variants.none (fun _ => ∅) (fun _ _ => 0) 1 :=
  RegionRecord.regionSeg (pcfgs (F := F)) adm (pdats m) 1 launch1.toP defs₀ Variants.none (W3 m) (W4 m)
    (fun c => (Region1.body_obligation (tcVal (W3 m)) c).loose)
    (fun c => (pdats m 1 c).share_full fun _ => rfl)
    (fun _ _ => rfl) (fun _ => rfl)
    (fun c w => Region1.A_eq _ c w)
    (fun _ k => k.elim0)
    (hF1 m) (hrest1 m)
    (fun c => by
      rw [show (pdats m 1 c).Φ 0 = Pipeline.ΦA spec1 c from rfl]
      iintro ⟨H, -⟩; iexact H)
    (fun c => by
      rw [show (pdats m 1 c).Φ (Fin.last _) = Pipeline.ΦA spec1 c from rfl]
      iintro H; isplitl [H]; · iexact H
      unfold Pipeline.prefHeld; rw [show (Finset.univ : Finset (Fin 0)) = ∅ from rfl, BI.bigSep_empty]; iempintro)

/-! ## Region 2 -/

theorem hrest2 (c : Dev nD) (b : Ref sig .tc) (hb : b ∉ Finset.univ.image (Pipeline.arrRef spec2)) :
    tcVal (W6 m) c b = tcVal (W5 m) c b :=
  W6_of m c b fun e => hb (Finset.mem_image.mpr ⟨2, Finset.mem_univ _, e.symm⟩)

/-- On entry the embedding's buffer, whole, is dealt to the two windows that read it, a half each; the output array's
    buffer goes to the output window whole. -/
theorem hsplit2 (c : Dev nD) :
    (Pipeline.arrBufs (Ix := Unit) (Name := ℕ) (U := UR sig nD τ) (Lvl := ℕ) spec2 c (tcVal (W5 m) c) : sProp 𝕄)
      ⊢ (Region2.dat (tcVal (W5 m)) c).arrays ((Region2.dat (tcVal (W5 m)) c).arrAt · 0) := by
  unfold Pipeline.arrBufs Dat.arrays
  rw [bigSep_eq_bigSepL_of_eq [main_v28, main_v29] (by decide) (by decide), bigSep_W2]
  have s0 : (Region2.dat (tcVal (W5 m)) c).share 0 = fullShare.left := rfl
  have s1 : (Region2.dat (tcVal (W5 m)) c).share 1 = fullShare.right := rfl
  have s2 : (Region2.dat (tcVal (W5 m)) c).share 2 = fullShare := rfl
  rw [s0, s1, s2, (arr_whole2 0).set_eq_univ, (arr_whole2 2).set_eq_univ]
  change iprop(((c : Thread nD τ).loc main_v28 ↦{fullShare} tcVal (W5 m) c main_v28) ∗ ((c : Thread nD τ).loc main_v29 ↦{fullShare} tcVal (W5 m) c main_v29)) ⊢ _
  iintro ⟨Hz, Hy⟩
  ihave H := (pointsTo_share (PosShare.mem_left_op_right fullShare)).1 $$ Hz
  icases H with ⟨Hl, Hr⟩
  isplitl [Hl]; · iexact Hl
  isplitl [Hr]; · iexact Hr
  iexact Hy

/-- On exit the two halves of the embedding's buffer, both still at the embedding, make it whole again, and the
    output array's buffer holds what the write-backs left. -/
theorem hjoin2 (c : Dev nD) :
    (Region2.dat (tcVal (W5 m)) c).arrays ((Region2.dat (tcVal (W5 m)) c).arrAt · cfg2.N)
      ⊢ (Pipeline.arrBufs (Ix := Unit) (Name := ℕ) (U := UR sig nD τ) (Lvl := ℕ) spec2 c (tcVal (W6 m) c) : sProp 𝕄) := by
  unfold Pipeline.arrBufs Dat.arrays
  rw [bigSep_eq_bigSepL_of_eq [main_v28, main_v29] (by decide) (by decide), bigSep_W2]
  have s0 : (Region2.dat (tcVal (W5 m)) c).share 0 = fullShare.left := rfl
  have s1 : (Region2.dat (tcVal (W5 m)) c).share 1 = fullShare.right := rfl
  have s2 : (Region2.dat (tcVal (W5 m)) c).share 2 = fullShare := rfl
  rw [s0, s1, s2, (arr_whole2 0).set_eq_univ, (arr_whole2 2).set_eq_univ]
  have e0 : (Region2.dat (tcVal (W5 m)) c).arrAt 0 cfg2.N = tcVal (W6 m) c main_v28 :=
    ((Region2.dat (tcVal (W5 m)) c).arrAt_in 0 rfl _).trans ((Region2.A_eq _ c 0).trans (W6_of m c main_v28 (by decide)).symm)
  have e1 : (Region2.dat (tcVal (W5 m)) c).arrAt 1 cfg2.N = tcVal (W6 m) c main_v28 :=
    ((Region2.dat (tcVal (W5 m)) c).arrAt_in 1 rfl _).trans ((Region2.A_eq _ c 1).trans (W6_of m c main_v28 (by decide)).symm)
  have e2 : (Region2.dat (tcVal (W5 m)) c).arrAt 2 cfg2.N = tcVal (W6 m) c main_v29 := (W6_out m c).symm
  change _ ⊢ iprop(((c : Thread nD τ).loc main_v28 ↦{fullShare} tcVal (W6 m) c main_v28) ∗ ((c : Thread nD τ).loc main_v29 ↦{fullShare} tcVal (W6 m) c main_v29))
  dsimp only
  rw [e0, e1, e2]
  iintro ⟨Hl, Hr, Hy⟩
  isplitl [Hl Hr]
  · iapply (pointsTo_share (PosShare.mem_left_op_right fullShare)).2
    isplitl [Hl]; · iexact Hl
    iexact Hr
  iexact Hy

set_option backward.isDefEq.respectTransparency.types false in
/-- Region 2 between the contents with the embedding in place and those with the inner products in place. -/
def reg2 : Pipeline.RegionSeg (pcfgs (F := F)) adm (pdats m) () defs₀ Variants.none (fun _ => ∅) (fun _ _ => 0) 2 :=
  RegionRecord.sharedRegionSeg (pcfgs (F := F)) adm (pdats m) 2 defs₀ Variants.none (W5 m) (W6 m)
    winFacts₀2 (Pipeline.PreFacts.none _) block_pos2 stage_whole2
    (fun c => (Region2.body_obligation (tcVal (W5 m)) c).loose)
    (fun _ _ => rfl) (fun _ => rfl)
    (fun _ k => k.elim0)
    (hsplit2 m) (hjoin2 m) (hrest2 m)
    (fun c => by
      rw [show (pdats m 2 c).Φ 0 = Pipeline.ΦA spec2 c from rfl]
      iintro ⟨H, -⟩; iexact H)
    (fun c => by
      rw [show (pdats m 2 c).Φ (Fin.last _) = Pipeline.ΦA spec2 c from rfl]
      iintro H; isplitl [H]; · iexact H
      unfold Pipeline.prefHeld; rw [show (Finset.univ : Finset (Fin 0)) = ∅ from rfl, BI.bigSep_empty]; iempintro)

end Cert.Kernel.Run

end
-- ==== Proof.KRun.lean ====
/-
  The run of the whole program.

  @main is seven items in order: region 0, the edge aggregation, the maximum with zero, region 1, the second
  aggregation, region 2, the flattening.  Each item takes the core from "every unscoped buffer whole at the contents
  before it" to the same at the contents after it; the items chain; at launch the unscoped buffers hold the launch
  memory; at the end every unscoped buffer can be read against the last contents.  So every weakly fair execution
  terminates, nothing faults, and the final memory holds each unscoped buffer at the last contents: each argument
  array as launched, and the result buffer at the flattened output array of region 2.
-/
import proofs.«127594_j31439160606755_1_alg».proof.Proof.KRecs

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open RegionRecord (tcVal rider threadState)

variable {F : FTy → Type} [FloatOps F]

local notation "𝕄" => MT nD τ sig Unit (Elt F) ℕ (UR sig nD τ) ℕ

variable (m : (ℓ : Loc nD τ sig) → Buf (Elt F) ℓ)

/-- A stretch of host operations as a segment from the contents W: it ends at the contents after the operations, the
    generator register and the core's owing nothing riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ Variants.none (fun _ => ∅) (fun _ _ => 0) :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W (rider (U := UR sig nD τ) (Val := Elt F))

/-- @main's seven items as segments. -/
abbrev segs (c : Dev nD) : List (Seg (pcfgs (F := F)) adm (pdats m) () defs₀ Variants.none (fun _ => ∅) (fun _ _ => 0)) :=
  [ .region (reg0 m),
    .host (hseg hostOps1 hostOps1_sub hostOps1_fresh (W1 m)),
    .host (hseg hostOps1_1 hostOps1_1_sub hostOps1_1_fresh (W2 m)),
    .region (reg1 m),
    .host (hseg hostOps2 hostOps2_sub hostOps2_fresh (W4 m)),
    .region (reg2 m),
    .host (hseg hostOps3 hostOps3_sub hostOps3_fresh (W6 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's end state, regrouped: the buffers and the generator register on one side, the core owing nothing on
    the other. -/
theorem last_link (c : Dev nD) :
    (iprop(StableHlo.held (c : Thread nD τ) (Pipeline.ucRefs τ sig) (W7 m c) ∗ rider (U := UR sig nD τ) (Val := Elt F) c) : sProp 𝕄)
      ⊢ iprop((StableHlo.held (c : Thread nD τ) (Pipeline.ucRefs τ sig) (W7 m c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- From any memory with zero counters every weakly fair execution of @main terminates, nothing faulting, and every
    final memory holds every unscoped buffer at the last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m c b) :=
  Pipeline.θ_run_regions_kit_dev (pcfgs (F := F)) adm (pdats m) () cellOf_inj emb₁ defs₀ Variants.none (fun _ => ∅) (fun _ _ => 0) m ρ main
    (segs m)
    (fun c Q => by
      rewrite [main_chain c, Seg.run_eq_chain,
        show (segs m c).map Seg.prog = [
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => threadState (U := UR sig nD τ) (W0 m) c)
    (Tₙ := fun c => iprop(StableHlo.held (c : Thread nD τ) (Pipeline.ucRefs τ sig) (W7 m c) ∗ ∃ r, prngReg c r))
    (hch := fun c => ⟨.rfl, .rfl, .rfl, .rfl, .rfl, .rfl, .rfl, last_link m c⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 m c b)
    (hfin := fun c s' => by
      iintro ⟨⟨Hh, -⟩, HSI⟩
      unfold StableHlo.held
      imodintro
      iapply (pointsTo_read_all (Pipeline.ucRefs τ sig) (fun b => ((c : Thread nD τ).1, b)) (W7 m c) s')
      isplitl [Hh] <;> iassumption)
    (hQ := fun s h => h)

/-- The frame: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

/-- The run with the result buffer named: it ends at the last contents of the result buffer, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v30) = W7 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v30 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

end Cert.Kernel.Run

end
-- ==== Proof.KIBody0.lean ====
/-
  Kernel region 0: what one grid point does to the staged blocks, and the region's proof data.

  At a grid point the body reads its two input blocks whole, forms their matrix product into a zero accumulator —
  a block of 2000 rows of the left operand times the whole right operand (512 rows, 32 columns) — and overwrites the whole output block with it.  So after the body the two input buffers hold what they
  held, and the output buffer holds that product of the two input blocks, whatever it held before.  The proof data
  record this for every point: the arrays as the region finds them, each input buffer at its block of its array,
  the output buffer at the product of the two input blocks, nothing owed.
-/
import proofs.«127594_j31439160606755_1_alg».proof.Proof.Gen.KernelIdeal.Launch
import proofs.«127594_j31439160606755_1_alg».proof.Proof.Gen.KernelIdeal.Skeleton
import proofs.«127594_j31439160606755_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block (the whole array) at every point: it is fetched once and its
    index never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev ra : Rect S2000x512 := Rect.unit (s := S2000x512) ![0, 0] S2000x512.size inb_S2000x512_S2000x512_0_0
abbrev rb : Rect S512x32 := Rect.unit (s := S512x32) ![0, 0] S512x32.size inb_S512x32_S512x32_0_0
abbrev ro : Rect S2000x32 := Rect.unit (s := S2000x32) ![0, 0] S2000x32.size inb_S2000x32_S2000x32_0_0

/-- The output buffer after the body: its one store, of the product of the two input blocks. -/
def out (x0 : Vec F S2000x512 .f32) (x1 : Vec F S512x32 .f32) : Vec F S2000x32 .f32 :=
  View.canon [⟨ro, k0_pay1 (View.ld x0 ra) (View.ld x1 rb)⟩]

/-- The one store covers the whole output buffer. -/
theorem cover (p0 : Vec F S2000x32 .f32) (y : S2000x32.Idx) :
    ∃ pc ∈ ([⟨ro, p0⟩] : List (View.Piece (Elt F) S2000x32 .f32)), y ∈ pc.1.set :=
  View.cover_of_tiled [⟨ro, p0⟩] S2000x32.size (by rfl) y

set_option maxHeartbeats 1000000 in
/-- The body on whole staging buffers, the inputs at x0 and x1 and the output at anything: it ends with the inputs as
    they were and the output at the product. -/
theorem sound_kernel (c : Dev nD) (E : Set ℕ) (i : grid0.Coords) (arg1 : Memref sig .tc .vmem S2000x512 .f32) (harg1 : arg1.IsWhole) (arg2 : Memref sig .tc .vmem S512x32 .f32) (harg2 : arg2.IsWhole) (arg3 : Memref sig .tc .vmem S2000x32 .f32) (harg3 : arg3.IsWhole)
    (x0 : Vec F S2000x512 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core c: the arrays as the region finds them; after the body at point t each input
    buffer at its block and the output buffer at the product of the two input blocks; the plain class invariant;
    nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q := fun _ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the input buffers hold their blocks, so the triple above applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.KIBody1.lean ====
/-
  Kernel region 1: what one grid point does to the staged blocks, and the region's proof data.

  At a grid point the body reads its two input blocks whole, forms their matrix product into a zero accumulator —
  a block of 2000 rows of the left operand times the whole right operand (32 rows, 16 columns) — and overwrites the whole output block with it.  So after the body the two input buffers hold what they
  held, and the output buffer holds that product of the two input blocks, whatever it held before.  The proof data
  record this for every point: the arrays as the region finds them, each input buffer at its block of its array,
  the output buffer at the product of the two input blocks, nothing owed.
-/
import proofs.«127594_j31439160606755_1_alg».proof.Proof.Gen.KernelIdeal.Launch
import proofs.«127594_j31439160606755_1_alg».proof.Proof.Gen.KernelIdeal.Skeleton
import proofs.«127594_j31439160606755_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block (the whole array) at every point: it is fetched once and its
    index never moves. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev ra : Rect S2000x32 := Rect.unit (s := S2000x32) ![0, 0] S2000x32.size inb_S2000x32_S2000x32_0_0
abbrev rb : Rect S32x16 := Rect.unit (s := S32x16) ![0, 0] S32x16.size inb_S32x16_S32x16_0_0
abbrev ro : Rect S2000x16 := Rect.unit (s := S2000x16) ![0, 0] S2000x16.size inb_S2000x16_S2000x16_0_0

/-- The output buffer after the body: its one store, of the product of the two input blocks. -/
def out (x0 : Vec F S2000x32 .f32) (x1 : Vec F S32x16 .f32) : Vec F S2000x16 .f32 :=
  View.canon [⟨ro, k1_pay1 (View.ld x0 ra) (View.ld x1 rb)⟩]

/-- The one store covers the whole output buffer. -/
theorem cover (p0 : Vec F S2000x16 .f32) (y : S2000x16.Idx) :
    ∃ pc ∈ ([⟨ro, p0⟩] : List (View.Piece (Elt F) S2000x16 .f32)), y ∈ pc.1.set :=
  View.cover_of_tiled [⟨ro, p0⟩] S2000x16.size (by rfl) y

set_option maxHeartbeats 1000000 in
/-- The body on whole staging buffers, the inputs at x0 and x1 and the output at anything: it ends with the inputs as
    they were and the output at the product. -/
theorem sound_kernel (c : Dev nD) (E : Set ℕ) (i : grid1.Coords) (arg1 : Memref sig .tc .vmem S2000x32 .f32) (harg1 : arg1.IsWhole) (arg2 : Memref sig .tc .vmem S32x16 .f32) (harg2 : arg2.IsWhole) (arg3 : Memref sig .tc .vmem S2000x16 .f32) (harg3 : arg3.IsWhole)
    (x0 : Vec F S2000x32 .f32) (x1 : Vec F S32x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core c: the arrays as the region finds them; after the body at point t each input
    buffer at its block and the output buffer at the product of the two input blocks; the plain class invariant;
    nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out (iblk V c 0 t) (iblk V c 1 t)
  Φ _ := Pipeline.ΦA spec1 c
  q := fun _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point t, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the input buffers hold their blocks, so the triple above applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.KIBody2.lean ====
/-
  Kernel region 2: what one grid point does to the staged blocks, and the region's proof data.

  At a grid point the body reads its two input blocks whole, forms their matrix product into a zero accumulator —
  a block of 400 rows of the embedding against all 10000 rows of the same embedding (the second operand read along its rows) — and overwrites the whole output block with it.  So after the body the two input buffers hold what they
  held, and the output buffer holds that product of the two input blocks, whatever it held before.  The proof data
  record this for every point: the arrays as the region finds them, each input buffer at its block of its array,
  the output buffer at the product of the two input blocks, nothing owed.
-/
import proofs.«127594_j31439160606755_1_alg».proof.Proof.Gen.KernelIdeal.Launch
import proofs.«127594_j31439160606755_1_alg».proof.Proof.Gen.KernelIdeal.Skeleton
import proofs.«127594_j31439160606755_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input's staging buffer holds its block (the whole array) at every point: it is fetched once and its
    index never moves. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev ra : Rect S400x16 := Rect.unit (s := S400x16) ![0, 0] S400x16.size inb_S400x16_S400x16_0_0
abbrev rb : Rect S10000x16 := Rect.unit (s := S10000x16) ![0, 0] S10000x16.size inb_S10000x16_S10000x16_0_0
abbrev ro : Rect S400x10000 := Rect.unit (s := S400x10000) ![0, 0] S400x10000.size inb_S400x10000_S400x10000_0_0

/-- The output buffer after the body: its one store, of the product of the two input blocks. -/
def out (x0 : Vec F S400x16 .f32) (x1 : Vec F S10000x16 .f32) : Vec F S400x10000 .f32 :=
  View.canon [⟨ro, k2_pay1 (View.ld x0 ra) (View.ld x1 rb)⟩]

/-- The one store covers the whole output buffer. -/
theorem cover (p0 : Vec F S400x10000 .f32) (y : S400x10000.Idx) :
    ∃ pc ∈ ([⟨ro, p0⟩] : List (View.Piece (Elt F) S400x10000 .f32)), y ∈ pc.1.set :=
  View.cover_of_tiled [⟨ro, p0⟩] S400x10000.size (by rfl) y

set_option maxHeartbeats 1000000 in
/-- The body on whole staging buffers, the inputs at x0 and x1 and the output at anything: it ends with the inputs as
    they were and the output at the product. -/
theorem sound_kernel (c : Dev nD) (E : Set ℕ) (i : grid2.Coords) (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc2__innerprod_kernel i arg1 harg1 arg2 harg2 arg3 harg3) K := by
  simp only [cc2__innerprod_kernel_eq_skeleton]; unfold cc2__innerprod_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The region's proof data on core c: the arrays as the region finds them; after the body at point t each input
    buffer at its block and the output buffer at the product of the two input blocks; the plain class invariant;
    nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out (iblk V c 0 t) (iblk V c 1 t)
  Φ _ := Pipeline.ΦA spec2 c
  q := fun w => match w with
    | ⟨0, _⟩ => fullShare.left
    | ⟨1, _⟩ => fullShare.right
    | ⟨2, _⟩ => fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out (iblk V c 0 t) (iblk V c 1 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point t, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the input buffers hold their blocks, so the triple above applies; the invariant and what
    the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid2.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.Region2

end
-- ==== Proof.KIVals.lean ====
/-
  The buffers' contents at every boundary of the program.

  The program is three kernel regions among stretches of host operations.  Between two of these items a core holds
  every unscoped buffer at a valuation.  From the launch memory: region 0 writes the first product into its output
  array and nothing else; the first host stretch (the edge aggregation) and the maximum with zero run over that;
  region 1 writes the second product; the second host stretch runs; region 2 writes the array of inner products; the
  last operation flattens it.  A region changes only its output array, which ends at what its write-backs leave
  (the proof data's array after the last grid point); a host stretch changes only the buffers it writes.  Hence no
  argument array is ever changed.
-/
import proofs.«127594_j31439160606755_1_alg».proof.Proof.Gen.KernelIdeal.Regions
import proofs.«127594_j31439160606755_1_alg».proof.Proof.KIBody0
import proofs.«127594_j31439160606755_1_alg».proof.Proof.KIBody1
import proofs.«127594_j31439160606755_1_alg».proof.Proof.KIBody2
import proofs.«127594_j31439160606755_1_alg».proof.Proof.LibRegionRecord

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)
open RegionRecord (tcVal)

variable {F : FTy → Type} [FloatOps F]
variable (m : (ℓ : Loc nD τ sig) → Buf (Elt F) ℓ)

/-- At launch. -/
abbrev W0 (c : Dev nD) : Valuation τ sig (Elt F) := fun b => m (c, b)

/-- What region 0 leaves in its output array: the first product, block by block. -/
def arr0 (c : Dev nD) : Buf (Elt F) ((c : Thread nD τ).loc main_v0) := (Region0.dat (tcVal (W0 m)) c).arrAt 2 cfg0.N
/-- After region 0. -/
def W1 (c : Dev nD) : Valuation τ sig (Elt F) := Function.update (W0 m c) main_v0 (arr0 m c)
/-- After the first host stretch (the aggregation over the edges). -/
abbrev W2 (c : Dev nD) : Valuation τ sig (Elt F) := StableHlo.after hostOps1 (W1 m c)
/-- After the maximum with zero. -/
abbrev W3 (c : Dev nD) : Valuation τ sig (Elt F) := StableHlo.after hostOps1_1 (W2 m c)

/-- What region 1 leaves in its output array: the second product. -/
def arr1 (c : Dev nD) : Buf (Elt F) ((c : Thread nD τ).loc main_v15) := (Region1.dat (tcVal (W3 m)) c).arrAt 2 cfg1.N
/-- After region 1. -/
def W4 (c : Dev nD) : Valuation τ sig (Elt F) := Function.update (W3 m c) main_v15 (arr1 m c)
/-- After the second host stretch. -/
abbrev W5 (c : Dev nD) : Valuation τ sig (Elt F) := StableHlo.after hostOps2 (W4 m c)

/-- What region 2 leaves in its output array: the inner products. -/
def arr2 (c : Dev nD) : Buf (Elt F) ((c : Thread nD τ).loc main_v29) := (Region2.dat (tcVal (W5 m)) c).arrAt 2 cfg2.N
/-- After region 2. -/
def W6 (c : Dev nD) : Valuation τ sig (Elt F) := Function.update (W5 m c) main_v29 (arr2 m c)
/-- At the end: after the flattening. -/
abbrev W7 (c : Dev nD) : Valuation τ sig (Elt F) := StableHlo.after hostOps3 (W6 m c)

/-! ## What each item leaves unchanged -/

theorem W1_out (c : Dev nD) : W1 m c main_v0 = arr0 m c := by unfold W1; exact Function.update_self ..
theorem W1_of (c : Dev nD) (r : Ref sig .tc) (h : r ≠ main_v0) : W1 m c r = W0 m c r := by
  unfold W1; exact Function.update_of_ne (StableHlo.devRef_ne_of_ne h) ..
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ∉ hostOps1_1_W) : W3 m c r = W2 m c r :=
  StableHlo.after_of_writes_sub hostOps1_1 _ hostOps1_1_writes h
theorem W4_out (c : Dev nD) : W4 m c main_v15 = arr1 m c := by unfold W4; exact Function.update_self ..
theorem W4_of (c : Dev nD) (r : Ref sig .tc) (h : r ≠ main_v15) : W4 m c r = W3 m c r := by
  unfold W4; exact Function.update_of_ne (StableHlo.devRef_ne_of_ne h) ..
theorem W5_of (c : Dev nD) (r : Ref sig .tc) (h : r ∉ hostOps2_W) : W5 m c r = W4 m c r :=
  StableHlo.after_of_writes_sub hostOps2 _ hostOps2_writes h
theorem W6_out (c : Dev nD) : W6 m c main_v29 = arr2 m c := by unfold W6; exact Function.update_self ..
theorem W6_of (c : Dev nD) (r : Ref sig .tc) (h : r ≠ main_v29) : W6 m c r = W5 m c r := by
  unfold W6; exact Function.update_of_ne (StableHlo.devRef_ne_of_ne h) ..
theorem W7_of (c : Dev nD) (r : Ref sig .tc) (h : r ∉ hostOps3_W) : W7 m c r = W6 m c r :=
  StableHlo.after_of_writes_sub hostOps3 _ hostOps3_writes h

/-- A buffer that no region writes back to and no host operation writes ends as launched. -/
theorem W7_untouched (c : Dev nD) (r : Ref sig .tc) (h0 : r ≠ main_v0) (h1 : r ∉ hostOps1_W) (h2 : r ∉ hostOps1_1_W)
    (h3 : r ≠ main_v15) (h4 : r ∉ hostOps2_W) (h5 : r ≠ main_v29) (h6 : r ∉ hostOps3_W) :
    W7 m c r = m ((c : Thread nD τ).loc r) :=
  (W7_of m c r h6).trans <| (W6_of m c r h5).trans <| (W5_of m c r h4).trans <| (W4_of m c r h3).trans <|
    (W3_of m c r h2).trans <| (W2_of m c r h1).trans <| (W1_of m c r h0).trans rfl

theorem W7_main_arg0 (c : Dev nD) : W7 m c main_arg0 = m ((c : Thread nD τ).loc main_arg0) :=
  W7_untouched m c main_arg0 (by decide) (by decide) (by decide) (by decide) (by decide) (by decide) (by decide)
theorem W7_main_arg1 (c : Dev nD) : W7 m c main_arg1 = m ((c : Thread nD τ).loc main_arg1) :=
  W7_untouched m c main_arg1 (by decide) (by decide) (by decide) (by decide) (by decide) (by decide) (by decide)
theorem W7_main_arg2 (c : Dev nD) : W7 m c main_arg2 = m ((c : Thread nD τ).loc main_arg2) :=
  W7_untouched m c main_arg2 (by decide) (by decide) (by decide) (by decide) (by decide) (by decide) (by decide)
theorem W7_main_arg3 (c : Dev nD) : W7 m c main_arg3 = m ((c : Thread nD τ).loc main_arg3) :=
  W7_untouched m c main_arg3 (by decide) (by decide) (by decide) (by decide) (by decide) (by decide) (by decide)
theorem W7_main_arg4 (c : Dev nD) : W7 m c main_arg4 = m ((c : Thread nD τ).loc main_arg4) :=
  W7_untouched m c main_arg4 (by decide) (by decide) (by decide) (by decide) (by decide) (by decide) (by decide)
theorem W7_main_arg5 (c : Dev nD) : W7 m c main_arg5 = m ((c : Thread nD τ).loc main_arg5) :=
  W7_untouched m c main_arg5 (by decide) (by decide) (by decide) (by decide) (by decide) (by decide) (by decide)

/-! ## The proof data family -/

/-- No pipeline has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (tcVal (W0 m)) c
  | ⟨1, _⟩ => fun c => Region1.dat (tcVal (W3 m)) c
  | ⟨2, _⟩ => fun c => Region2.dat (tcVal (W5 m)) c

end Cert.KernelIdeal.Run

end
-- ==== Proof.KIRecs.lean ====
/-
  The three kernel regions as segments of the program.

  Each region is entered with every unscoped buffer whole at the contents before it and left with every unscoped buffer
  whole at the contents after it: its output array at what the write-backs leave, everything else as entered.  Regions
  0 and 1 read two distinct arrays and write a third.  Region 2 reads ONE array, the embedding, through two windows — a
  block of 400 rows and the whole array — and writes the inner products: on entry the embedding's buffer is dealt to the
  two windows a half each, and on exit the two halves, both still holding the embedding, are put together again.
-/
import proofs.«127594_j31439160606755_1_alg».proof.Proof.KIVals
import proofs.«127594_j31439160606755_1_alg».proof.Proof.LibRegionRecord
import proofs.«127594_j31439160606755_1_alg».proof.Proof.LibSharedRecord

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open RegionRecord (tcVal)

variable {F : FTy → Type} [FloatOps F]

local notation "𝕄" => MT nD τ sig Unit (Elt F) ℕ (UR sig nD τ) ℕ

variable (m : (ℓ : Loc nD τ sig) → Buf (Elt F) ℓ)

/-! ## Region 0 -/

theorem hF0 (c : Dev nD) (w : Fin cfg0.W) :
    (Region0.dat (tcVal (W0 m)) c).arrAt w cfg0.N = tcVal (W1 m) c (Pipeline.arrRef spec0 w) := by
  match w with
  | ⟨0, _⟩ => exact ((Region0.dat (tcVal (W0 m)) c).arrAt_in 0 rfl _).trans ((Region0.A_eq _ c 0).trans (W1_of m c main_arg0 (by decide)).symm)
  | ⟨1, _⟩ => exact ((Region0.dat (tcVal (W0 m)) c).arrAt_in 1 rfl _).trans ((Region0.A_eq _ c 1).trans (W1_of m c main_arg2 (by decide)).symm)
  | ⟨2, _⟩ => exact (W1_out m c).symm

theorem hrest0 (c : Dev nD) (b : Ref sig .tc) (hb : b ∉ Finset.univ.image (Pipeline.arrRef spec0)) :
    tcVal (W1 m) c b = tcVal (W0 m) c b :=
  W1_of m c b fun e => hb (Finset.mem_image.mpr ⟨2, Finset.mem_univ _, e.symm⟩)

set_option backward.isDefEq.respectTransparency.types false in
/-- Region 0 between the launch contents and the contents with the first product in place. -/
def reg0 : Pipeline.RegionSeg (pcfgs (F := F)) adm (pdats m) () defs₀ Variants.none (fun _ => ∅) (fun _ _ => 0) 0 :=
  RegionRecord.regionSeg (pcfgs (F := F)) adm (pdats m) 0 launch0.toP defs₀ Variants.none (W0 m) (W1 m)
    (fun c => (Region0.body_obligation (tcVal (W0 m)) c).loose)
    (fun c => (pdats m 0 c).share_full fun _ => rfl)
    (fun _ _ => rfl) (fun _ => rfl)
    (fun c w => Region0.A_eq _ c w)
    (fun _ k => k.elim0)
    (hF0 m) (hrest0 m)
    (fun c => by
      rw [show (pdats m 0 c).Φ 0 = Pipeline.ΦA spec0 c from rfl]
      iintro ⟨H, -⟩; iexact H)
    (fun c => by
      rw [show (pdats m 0 c).Φ (Fin.last _) = Pipeline.ΦA spec0 c from rfl]
      iintro H; isplitl [H]; · iexact H
      unfold Pipeline.prefHeld; rw [show (Finset.univ : Finset (Fin 0)) = ∅ from rfl, BI.bigSep_empty]; iempintro)

/-! ## Region 1 -/

theorem hF1 (c : Dev nD) (w : Fin cfg1.W) :
    (Region1.dat (tcVal (W3 m)) c).arrAt w cfg1.N = tcVal (W4 m) c (Pipeline.arrRef spec1 w) := by
  match w with
  | ⟨0, _⟩ => exact ((Region1.dat (tcVal (W3 m)) c).arrAt_in 0 rfl _).trans ((Region1.A_eq _ c 0).trans (W4_of m c main_v14 (by decide)).symm)
  | ⟨1, _⟩ => exact ((Region1.dat (tcVal (W3 m)) c).arrAt_in 1 rfl _).trans ((Region1.A_eq _ c 1).trans (W4_of m c main_arg3 (by decide)).symm)
  | ⟨2, _⟩ => exact (W4_out m c).symm

theorem hrest1 (c : Dev nD) (b : Ref sig .tc) (hb : b ∉ Finset.univ.image (Pipeline.arrRef spec1)) :
    tcVal (W4 m) c b = tcVal (W3 m) c b :=
  W4_of m c b fun e => hb (Finset.mem_image.mpr ⟨2, Finset.mem_univ _, e.symm⟩)

set_option backward.isDefEq.respectTransparency.types false in
/-- Region 1 between the contents after the first layer and those with the second product in place. -/
def reg1 : Pipeline.RegionSeg (pcfgs (F := F)) adm (pdats m) () defs₀ Variants.none (fun _ => ∅) (fun _ _ => 0) 1 :=
  RegionRecord.regionSeg (pcfgs (F := F)) adm (pdats m) 1 launch1.toP defs₀ Variants.none (W3 m) (W4 m)
    (fun c => (Region1.body_obligation (tcVal (W3 m)) c).loose)
    (fun c => (pdats m 1 c).share_full fun _ => rfl)
    (fun _ _ => rfl) (fun _ => rfl)
    (fun c w => Region1.A_eq _ c w)
    (fun _ k => k.elim0)
    (hF1 m) (hrest1 m)
    (fun c => by
      rw [show (pdats m 1 c).Φ 0 = Pipeline.ΦA spec1 c from rfl]
      iintro ⟨H, -⟩; iexact H)
    (fun c => by
      rw [show (pdats m 1 c).Φ (Fin.last _) = Pipeline.ΦA spec1 c from rfl]
      iintro H; isplitl [H]; · iexact H
      unfold Pipeline.prefHeld; rw [show (Finset.univ : Finset (Fin 0)) = ∅ from rfl, BI.bigSep_empty]; iempintro)

/-! ## Region 2 -/

theorem hrest2 (c : Dev nD) (b : Ref sig .tc) (hb : b ∉ Finset.univ.image (Pipeline.arrRef spec2)) :
    tcVal (W6 m) c b = tcVal (W5 m) c b :=
  W6_of m c b fun e => hb (Finset.mem_image.mpr ⟨2, Finset.mem_univ _, e.symm⟩)

/-- On entry the embedding's buffer, whole, is dealt to the two windows that read it, a half each; the output array's
    buffer goes to the output window whole. -/
theorem hsplit2 (c : Dev nD) :
    (Pipeline.arrBufs (Ix := Unit) (Name := ℕ) (U := UR sig nD τ) (Lvl := ℕ) spec2 c (tcVal (W5 m) c) : sProp 𝕄)
      ⊢ (Region2.dat (tcVal (W5 m)) c).arrays ((Region2.dat (tcVal (W5 m)) c).arrAt · 0) := by
  unfold Pipeline.arrBufs Dat.arrays
  rw [bigSep_eq_bigSepL_of_eq [main_v28, main_v29] (by decide) (by decide), bigSep_W2]
  have s0 : (Region2.dat (tcVal (W5 m)) c).share 0 = fullShare.left := rfl
  have s1 : (Region2.dat (tcVal (W5 m)) c).share 1 = fullShare.right := rfl
  have s2 : (Region2.dat (tcVal (W5 m)) c).share 2 = fullShare := rfl
  rw [s0, s1, s2, (arr_whole2 0).set_eq_univ, (arr_whole2 2).set_eq_univ]
  change iprop(((c : Thread nD τ).loc main_v28 ↦{fullShare} tcVal (W5 m) c main_v28) ∗ ((c : Thread nD τ).loc main_v29 ↦{fullShare} tcVal (W5 m) c main_v29)) ⊢ _
  iintro ⟨Hz, Hy⟩
  ihave H := (pointsTo_share (PosShare.mem_left_op_right fullShare)).1 $$ Hz
  icases H with ⟨Hl, Hr⟩
  isplitl [Hl]; · iexact Hl
  isplitl [Hr]; · iexact Hr
  iexact Hy

/-- On exit the two halves of the embedding's buffer, both still at the embedding, make it whole again, and the
    output array's buffer holds what the write-backs left. -/
theorem hjoin2 (c : Dev nD) :
    (Region2.dat (tcVal (W5 m)) c).arrays ((Region2.dat (tcVal (W5 m)) c).arrAt · cfg2.N)
      ⊢ (Pipeline.arrBufs (Ix := Unit) (Name := ℕ) (U := UR sig nD τ) (Lvl := ℕ) spec2 c (tcVal (W6 m) c) : sProp 𝕄) := by
  unfold Pipeline.arrBufs Dat.arrays
  rw [bigSep_eq_bigSepL_of_eq [main_v28, main_v29] (by decide) (by decide), bigSep_W2]
  have s0 : (Region2.dat (tcVal (W5 m)) c).share 0 = fullShare.left := rfl
  have s1 : (Region2.dat (tcVal (W5 m)) c).share 1 = fullShare.right := rfl
  have s2 : (Region2.dat (tcVal (W5 m)) c).share 2 = fullShare := rfl
  rw [s0, s1, s2, (arr_whole2 0).set_eq_univ, (arr_whole2 2).set_eq_univ]
  have e0 : (Region2.dat (tcVal (W5 m)) c).arrAt 0 cfg2.N = tcVal (W6 m) c main_v28 :=
    ((Region2.dat (tcVal (W5 m)) c).arrAt_in 0 rfl _).trans ((Region2.A_eq _ c 0).trans (W6_of m c main_v28 (by decide)).symm)
  have e1 : (Region2.dat (tcVal (W5 m)) c).arrAt 1 cfg2.N = tcVal (W6 m) c main_v28 :=
    ((Region2.dat (tcVal (W5 m)) c).arrAt_in 1 rfl _).trans ((Region2.A_eq _ c 1).trans (W6_of m c main_v28 (by decide)).symm)
  have e2 : (Region2.dat (tcVal (W5 m)) c).arrAt 2 cfg2.N = tcVal (W6 m) c main_v29 := (W6_out m c).symm
  change _ ⊢ iprop(((c : Thread nD τ).loc main_v28 ↦{fullShare} tcVal (W6 m) c main_v28) ∗ ((c : Thread nD τ).loc main_v29 ↦{fullShare} tcVal (W6 m) c main_v29))
  dsimp only
  rw [e0, e1, e2]
  iintro ⟨Hl, Hr, Hy⟩
  isplitl [Hl Hr]
  · iapply (pointsTo_share (PosShare.mem_left_op_right fullShare)).2
    isplitl [Hl]; · iexact Hl
    iexact Hr
  iexact Hy

set_option backward.isDefEq.respectTransparency.types false in
/-- Region 2 between the contents with the embedding in place and those with the inner products in place. -/
def reg2 : Pipeline.RegionSeg (pcfgs (F := F)) adm (pdats m) () defs₀ Variants.none (fun _ => ∅) (fun _ _ => 0) 2 :=
  RegionRecord.sharedRegionSeg (pcfgs (F := F)) adm (pdats m) 2 defs₀ Variants.none (W5 m) (W6 m)
    winFacts₀2 (Pipeline.PreFacts.none _) block_pos2 stage_whole2
    (fun c => (Region2.body_obligation (tcVal (W5 m)) c).loose)
    (fun _ _ => rfl) (fun _ => rfl)
    (fun _ k => k.elim0)
    (hsplit2 m) (hjoin2 m) (hrest2 m)
    (fun c => by
      rw [show (pdats m 2 c).Φ 0 = Pipeline.ΦA spec2 c from rfl]
      iintro ⟨H, -⟩; iexact H)
    (fun c => by
      rw [show (pdats m 2 c).Φ (Fin.last _) = Pipeline.ΦA spec2 c from rfl]
      iintro H; isplitl [H]; · iexact H
      unfold Pipeline.prefHeld; rw [show (Finset.univ : Finset (Fin 0)) = ∅ from rfl, BI.bigSep_empty]; iempintro)

end Cert.KernelIdeal.Run

end
-- ==== Proof.KIRun.lean ====
/-
  The run of the whole program.

  @main is seven items in order: region 0, the edge aggregation, the maximum with zero, region 1, the second
  aggregation, region 2, the flattening.  Each item takes the core from "every unscoped buffer whole at the contents
  before it" to the same at the contents after it; the items chain; at launch the unscoped buffers hold the launch
  memory; at the end every unscoped buffer can be read against the last contents.  So every weakly fair execution
  terminates, nothing faults, and the final memory holds each unscoped buffer at the last contents: each argument
  array as launched, and the result buffer at the flattened output array of region 2.
-/
import proofs.«127594_j31439160606755_1_alg».proof.Proof.KIRecs

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open RegionRecord (tcVal rider threadState)

variable {F : FTy → Type} [FloatOps F]

local notation "𝕄" => MT nD τ sig Unit (Elt F) ℕ (UR sig nD τ) ℕ

variable (m : (ℓ : Loc nD τ sig) → Buf (Elt F) ℓ)

/-- A stretch of host operations as a segment from the contents W: it ends at the contents after the operations, the
    generator register and the core's owing nothing riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ Variants.none (fun _ => ∅) (fun _ _ => 0) :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W (rider (U := UR sig nD τ) (Val := Elt F))

/-- @main's seven items as segments. -/
abbrev segs (c : Dev nD) : List (Seg (pcfgs (F := F)) adm (pdats m) () defs₀ Variants.none (fun _ => ∅) (fun _ _ => 0)) :=
  [ .region (reg0 m),
    .host (hseg hostOps1 hostOps1_sub hostOps1_fresh (W1 m)),
    .host (hseg hostOps1_1 hostOps1_1_sub hostOps1_1_fresh (W2 m)),
    .region (reg1 m),
    .host (hseg hostOps2 hostOps2_sub hostOps2_fresh (W4 m)),
    .region (reg2 m),
    .host (hseg hostOps3 hostOps3_sub hostOps3_fresh (W6 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's end state, regrouped: the buffers and the generator register on one side, the core owing nothing on
    the other. -/
theorem last_link (c : Dev nD) :
    (iprop(StableHlo.held (c : Thread nD τ) (Pipeline.ucRefs τ sig) (W7 m c) ∗ rider (U := UR sig nD τ) (Val := Elt F) c) : sProp 𝕄)
      ⊢ iprop((StableHlo.held (c : Thread nD τ) (Pipeline.ucRefs τ sig) (W7 m c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- From any memory with zero counters every weakly fair execution of @main terminates, nothing faulting, and every
    final memory holds every unscoped buffer at the last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W7 m c b) :=
  Pipeline.θ_run_regions_kit_dev (pcfgs (F := F)) adm (pdats m) () cellOf_inj emb₁ defs₀ Variants.none (fun _ => ∅) (fun _ _ => 0) m ρ main
    (segs m)
    (fun c Q => by
      rewrite [main_chain c, Seg.run_eq_chain,
        show (segs m c).map Seg.prog = [
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => threadState (U := UR sig nD τ) (W0 m) c)
    (Tₙ := fun c => iprop(StableHlo.held (c : Thread nD τ) (Pipeline.ucRefs τ sig) (W7 m c) ∗ ∃ r, prngReg c r))
    (hch := fun c => ⟨.rfl, .rfl, .rfl, .rfl, .rfl, .rfl, .rfl, last_link m c⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 m c b)
    (hfin := fun c s' => by
      iintro ⟨⟨Hh, -⟩, HSI⟩
      unfold StableHlo.held
      imodintro
      iapply (pointsTo_read_all (Pipeline.ucRefs τ sig) (fun b => ((c : Thread nD τ).1, b)) (W7 m c) s')
      isplitl [Hh] <;> iassumption)
    (hQ := fun s h => h)

/-- The frame: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

/-- The run with the result buffer named: it ends at the last contents of the result buffer, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v30) = W7 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v30 (by decide)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_all m ρ)

end Cert.KernelIdeal.Run

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowsDot.lean ====
/-
  A product of two matrices along their rows, read at an index, at the ideal values.

  For a left operand of shape [R, K] and a right operand of shape [C, K] contracted over the second axis of both
  (no batch axis: the product of the left operand with the transpose of the right), the kernel's matrix product
  into a zero accumulator and the host's `dot_general` are both, at output index (r, c), the sum over k of
  left (r, k) times right (c, k).  The extents R, K, C are symbolic: the same lemmas serve a block of rows of each
  operand and the whole arrays.
-/
import Idealize.ShloMosaic.PureOps.Ideal.Laws
import Idealize.ShloMosaic.Lib.ValueIdx

noncomputable section

namespace Cert.Lib.RowsDot

open Idealize.ShloMosaic Idealize.ShloMosaic.ValueIdx
open scoped BigOperators

variable {R K C : Nat}

/-- The left operand's index (r, k) for output index `j` = (r, c) and contraction position `k`. -/
abbrev leftIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index `j` = (r, c) and contraction position `k`. -/
abbrev rightIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- The product of an [R, K] array with the transpose of a [C, K] array, as a function of the output index. -/
def rowsDot (x : (⟨2, ![R, K]⟩ : Shape).Idx → EReal) (w : (⟨2, ![C, K]⟩ : Shape).Idx → EReal) :
    (⟨2, ![R, C]⟩ : Shape).Idx → EReal :=
  fun j => ∑ k : Fin K, x (leftIdx j k) * w (rightIdx j k)

/-- At coordinates: the sum over k of left (r, k) times right (c, k). -/
theorem rowsDot_ix2 (x : (⟨2, ![R, K]⟩ : Shape).Idx → EReal) (w : (⟨2, ![C, K]⟩ : Shape).Idx → EReal) (r : Fin R) (c : Fin C) :
    rowsDot x w (ix2 r c) = ∑ k : Fin K, x (ix2 r k) * w (ix2 c k) := by
  unfold rowsDot
  refine Finset.sum_congr rfl fun k _ => ?_
  have el : leftIdx (K := K) (ix2 r c) k = ix2 r k := funext fun a => Fin.ext (by match a with | ⟨0, _⟩ => rfl | ⟨1, _⟩ => rfl)
  have er : rightIdx (K := K) (ix2 r c) k = ix2 c k := funext fun a => Fin.ext (by match a with | ⟨0, _⟩ => rfl | ⟨1, _⟩ => rfl)
  rw [el, er]

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val = (q ⟨0, (show 0 < (DotDims.transposedRhs R K C).contr.rank from Nat.one_pos)⟩).val :=
  (DotDims.transposedRhs R K C).lhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl
theorem rhs1 (j : (⟨2, ![R, C]⟩ : Shape).Idx) (q : (DotDims.transposedRhs R K C).contr.Idx) :
    ((DotDims.transposedRhs R K C).rhsIdx j q 1).val = (q ⟨0, (show 0 < (DotDims.transposedRhs R K C).contr.rank from Nat.one_pos)⟩).val :=
  (DotDims.transposedRhs R K C).rhsIdx_val_of_single rfl j q

/-- The contraction's sum, re-indexed by the one contracted coordinate. -/
theorem sum_rows (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = rowsDot x w j := by
  unfold rowsDot
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k) = leftIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k) = rightIdx j k :=
    funext fun a => Fin.ext (by
      match a with
      | ⟨0, _⟩ => exact rhs0 _ _
      | ⟨1, _⟩ => exact (rhs1 _ _).trans hk)
  rw [el, er]

/-- The kernel's matrix product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = rowsDot x w j := by
  subst hd
  rw [Ideal.matmul_constant_zero_apply]
  exact sum_rows x w j

/-- The host's `dot_general`, at an index. -/
theorem dotGeneral_apply {φ₁ φ₂ : FTy} (d : DotDims ⟨2, ![R, K]⟩ ⟨2, ![C, K]⟩ ⟨2, ![R, C]⟩)
    (hd : d = DotDims.transposedRhs R K C) (prec : Option ContractPrecision) (sched : HostSchedule)
    (x : FVec Ideal ⟨2, ![R, K]⟩ φ₁) (w : FVec Ideal ⟨2, ![C, K]⟩ φ₂) (j : (⟨2, ![R, C]⟩ : Shape).Idx) :
    FloatOps.dotGeneral d prec sched x w j = rowsDot x w j := by
  subst hd
  rw [Ideal.dotGeneral_apply]
  exact sum_rows x w j

end Cert.Lib.RowsDot

end
-- ==== Proof.Payloads.lean ====
/-
  The values of the three kernel bodies, at the ideal values.

  Each body loads two whole blocks, multiplies them into a zero accumulator and stores the product; a cast of a
  block to its own shape changes nothing.  So the value stored is:
    first product  : at (r, c), the sum over k < 512 of a (r, k) * b (k, c)      (a is 2000 x 512, b is 512 x 32);
    second product : at (r, c), the sum over k < 32  of a (r, k) * b (k, c)      (a is 2000 x 32,  b is 32 x 16);
    inner products : at (r, c), the sum over k < 16  of a (r, k) * b (c, k)      (a is 400 x 16,   b is 10000 x 16),
  the last one contracting the second axis of both operands (rows against rows).
-/
import proofs.«127594_j31439160606755_1_alg».proof.Proof.Gen.KernelIdeal.Skeleton
import proofs.«127594_j31439160606755_1_alg».proof.Proof.LibPlainDot
import proofs.«127594_j31439160606755_1_alg».proof.Proof.LibRowsDot
import Idealize.ShloMosaic.Lib.Pipeline.Value

noncomputable section

namespace Cert.Bridge

open Idealize.ShloMosaic Cert.KernelIdeal Cert.KernelIdeal.Facts₀ Cert.KernelIdeal.Facts

variable [Cert.KernelIdeal.Facts]

/-- The first body's value: the 2000 x 512 block times the 512 x 32 weights, as the sum over the 512 shared positions. -/
theorem pay0_eq (a : Vec Ideal S2000x512 .f32) (b : Vec Ideal S512x32 .f32) :
    Cert.KernelIdeal.Gen.k0_pay1 (F := Ideal) a b = Cert.Lib.PlainDot.mm (R := 2000) (K := 512) (C := 32) a b := by
  funext j
  unfold Cert.KernelIdeal.Gen.k0_pay1
  exact Cert.Lib.PlainDot.matmul_zero_apply (R := 2000) (K := 512) (C := 32)
    dot_S2000x512_S512x32_S2000x32_1_0_0_1_n_n rfl none a b j

/-- The second body's value: the 2000 x 32 block times the 32 x 16 weights, as the sum over the 32 shared positions. -/
theorem pay1_eq (a : Vec Ideal S2000x32 .f32) (b : Vec Ideal S32x16 .f32) :
    Cert.KernelIdeal.Gen.k1_pay1 (F := Ideal) a b = Cert.Lib.PlainDot.mm (R := 2000) (K := 32) (C := 16) a b := by
  funext j
  unfold Cert.KernelIdeal.Gen.k1_pay1
  have ha : shapeCast S2000x32 a shapeCasts_S2000x32_S2000x32 = a := shapeCast_self a _
  refine (congrArg (fun v => FloatOps.matmul (F := Ideal) dot_S2000x32_S32x16_S2000x16_1_0_0_1_n_n none v b
    (constant (F := Ideal) S2000x16 .f32 0x00000000#32) j) ha).trans ?_
  exact Cert.Lib.PlainDot.matmul_zero_apply (R := 2000) (K := 32) (C := 16)
    dot_S2000x32_S32x16_S2000x16_1_0_0_1_n_n rfl none a b j

/-- The third body's value: every row of the 400 x 16 block against every row of the 10000 x 16 array, as the sum
    over the 16 shared positions. -/
theorem pay2_eq (a : Vec Ideal S400x16 .f32) (b : Vec Ideal S10000x16 .f32) :
    Cert.KernelIdeal.Gen.k2_pay1 (F := Ideal) a b = Cert.Lib.RowsDot.rowsDot (R := 400) (K := 16) (C := 10000) a b := by
  funext j
  unfold Cert.KernelIdeal.Gen.k2_pay1
  have ha : shapeCast S400x16 a shapeCasts_S400x16_S400x16 = a := shapeCast_self a _
  have hb : shapeCast S10000x16 b shapeCasts_S10000x16_S10000x16 = b := shapeCast_self b _
  refine (congrArg₂ (fun v w => FloatOps.matmul (F := Ideal) dot_S400x16_S10000x16_S400x10000_1_1_0_0_n_n none v w
    (constant (F := Ideal) S400x10000 .f32 0x00000000#32) j) ha hb).trans ?_
  exact Cert.Lib.RowsDot.matmul_zero_apply (R := 400) (K := 16) (C := 10000)
    dot_S400x16_S10000x16_S400x10000_1_1_0_0_n_n rfl none a b j

end Cert.Bridge

end
-- ==== Proof.KIBlocks.lean ====
/-
  From blocks to arrays: what each kernel region leaves in its output array, at the ideal values.

  A region runs its body once per grid point.  At point t the body multiplies the point's block of rows of the left
  operand by the whole right operand and the pipeline writes the product back as block t of the output array.  Row p
  of the point's left block is row (rows per block) * t + p of the left array, so the block product at (p, q) is the
  whole product at ((rows per block) * t + p, q): the same sum over the contracted index, term by term.  The
  blocks of the grid's points cover all 10000 rows (row r is in the block of point r / (rows per block)), so the
  output array ends holding the whole product:
    region 0:  X (10000 x 512) times W1 (512 x 32),  in 5 blocks of 2000 rows;
    region 1:  H (10000 x 32)  times W2 (32 x 16),   in 5 blocks of 2000 rows;
    region 2:  all inner products of the rows of Z (10000 x 16), in 25 blocks of 400 rows (both operands are Z;
               the right one is read along its rows).
-/
import proofs.«127594_j31439160606755_1_alg».proof.Proof.KIBody0
import proofs.«127594_j31439160606755_1_alg».proof.Proof.KIBody1
import proofs.«127594_j31439160606755_1_alg».proof.Proof.KIBody2
import proofs.«127594_j31439160606755_1_alg».proof.Proof.Payloads
import proofs.«127594_j31439160606755_1_alg».proof.Proof.LibPlainDot
import proofs.«127594_j31439160606755_1_alg».proof.Proof.LibRowsDot
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.Bridge

-- the buffers' contents when a region is entered
variable (V : (c : Dev nD) → (b : Ref sig .tc) → Buf (Elt Ideal) ((c : Thread nD τ).loc b))

theorem hz : (![0, 0] : Fin 2 → Nat) = fun _ => 0 := funext fun a => by fin_cases a <;> rfl

/-- Term by term: if the left operands agree along the contracted index and the right ones do, the two products
    agree at the two output indices. -/
theorem mm_congr {R R' K C : Nat} (xb : (⟨2, ![R, K]⟩ : Shape).Idx → EReal) (wb : (⟨2, ![K, C]⟩ : Shape).Idx → EReal)
    (X : (⟨2, ![R', K]⟩ : Shape).Idx → EReal) (W : (⟨2, ![K, C]⟩ : Shape).Idx → EReal)
    (j : (⟨2, ![R, C]⟩ : Shape).Idx) (i : (⟨2, ![R', C]⟩ : Shape).Idx)
    (hx : ∀ k : Fin K, xb (Cert.Lib.PlainDot.rowIdx j k) = X (Cert.Lib.PlainDot.rowIdx i k))
    (hw : ∀ k : Fin K, wb (Cert.Lib.PlainDot.colIdx j k) = W (Cert.Lib.PlainDot.colIdx i k)) :
    Cert.Lib.PlainDot.mm xb wb j = Cert.Lib.PlainDot.mm X W i :=
  Finset.sum_congr rfl fun k _ => by rw [hx k, hw k]

/-- The same for the product along the rows of both operands. -/
theorem rows_congr {R R' K C : Nat} (xb : (⟨2, ![R, K]⟩ : Shape).Idx → EReal) (wb : (⟨2, ![C, K]⟩ : Shape).Idx → EReal)
    (X : (⟨2, ![R', K]⟩ : Shape).Idx → EReal) (W : (⟨2, ![C, K]⟩ : Shape).Idx → EReal)
    (j : (⟨2, ![R, C]⟩ : Shape).Idx) (i : (⟨2, ![R', C]⟩ : Shape).Idx)
    (hx : ∀ k : Fin K, xb (Cert.Lib.RowsDot.leftIdx j k) = X (Cert.Lib.RowsDot.leftIdx i k))
    (hw : ∀ k : Fin K, wb (Cert.Lib.RowsDot.rightIdx j k) = W (Cert.Lib.RowsDot.rightIdx i k)) :
    Cert.Lib.RowsDot.rowsDot xb wb j = Cert.Lib.RowsDot.rowsDot X W i :=
  Finset.sum_congr rfl fun k _ => by rw [hx k, hw k]

/-! ## Region 0: the 10000 x 512 features times the 512 x 32 weights -/

/-- The printed index maps, decided once over the five grid points: the left operand's and the output's blocks are
    the point's own block of 2000 rows, all columns; the right operand's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: row p of the point's left block is row
    2000 t + p of the left array, and the right block is the whole right array, so the sum over the 512 shared
    positions at (p, q) of the block product is the sum at (2000 t + p, q) of the whole product. -/
theorem flushed0_eq (c : Dev nD) (t : Fin cfg0.N) :
    (Cert.KernelIdeal.Region0.dat V c).flushed 2 t
      = ((cfg0.win 2).blk t).view.read (Elt Ideal)
          (Cert.Lib.PlainDot.mm (R := 10000) (K := 512) (C := 32) (V c main_arg0) (V c main_arg2)) := by
  show (cfg0.win 2).cut (grid0.coords t) ((Cert.KernelIdeal.Region0.dat V c).after 2 t) = _
  rw [Cert.KernelIdeal.Region0.after_2]
  unfold Cert.KernelIdeal.Region0.out
  rw [View.canon_unit_zero hz]
  simp only [View.ld_unit_zero (S := S2000x512) hz, View.ld_unit_zero (S := S512x32) hz]
  rw [pay0_eq]
  obtain ⟨e0, e1, e2, e3, e4, e5⟩ := idx_facts0 t
  funext j
  show Cert.Lib.PlainDot.mm (R := 2000) (K := 512) (C := 32) (Cert.KernelIdeal.Region0.iblk V c 0 t) (Cert.KernelIdeal.Region0.iblk V c 1 t) j
    = Cert.Lib.PlainDot.mm (R := 10000) (K := 512) (C := 32) (V c main_arg0) (V c main_arg2) (((cfg0.win 2).blk t).view.emb j)
  refine mm_congr _ _ _ _ _ _ (fun k => ?_) (fun k => ?_)
  · -- the left block at (p, k) is the left array at (2000 t + p, k)
    show V c main_arg0 (((cfg0.win 0).blk t).view.emb (Cert.Lib.PlainDot.rowIdx j k))
      = V c main_arg0 (Cert.Lib.PlainDot.rowIdx (((cfg0.win 2).blk t).view.emb j) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · -- the right block at (k, q) is the right array at (k, q)
    show V c main_arg2 (((cfg0.win 1).blk t).view.emb (Cert.Lib.PlainDot.colIdx j k))
      = V c main_arg2 (Cert.Lib.PlainDot.colIdx (((cfg0.win 2).blk t).view.emb j) k)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 32 + 1 * (j 1).val = win0_2.index t (1 : Fin 2) * 32 + 1 * (j 1).val; omega

/-- An index of the output array is in point t's block iff each coordinate is in the block's range on its axis. -/
theorem mem_blk0 (t : Fin cfg0.N) (i : S10000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v0).slice (win0_2.rect t)).set ↔ _
  rw [View.set_slice_whole, Rect.mem_set_unit]
  exact Iff.rfl

/-- Row r of the output array lies in the block of point r / 2000. -/
theorem cover0 (i : S10000x32.Idx) :
    ∃ t : Fin cfg0.N, (cfg0.win 2).flush t = true ∧ i ∈ ((cfg0.win 2).blk t).view.set := by
  have hi0 : (i 0).val < 10000 := (i 0).isLt
  have hi1 : (i 1).val < 32 := (i 1).isLt
  have hN : grid0.N = 5 := N_0
  obtain ⟨t, ht⟩ : ∃ t : Fin cfg0.N, t.val = (i 0).val / 2000 := ⟨⟨(i 0).val / 2000, by show _ < grid0.N; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 32 ≤ (i 1).val ∧ (i 1).val < win0_2.index t (1 : Fin 2) * 32 + 32; omega

/-- The region's output array after its five points is the whole product: every point writes its block of it, and
    the five blocks of 2000 rows cover the 10000 rows. -/
theorem arr0_eq (c : Dev nD) :
    (Cert.KernelIdeal.Region0.dat V c).arrAt 2 cfg0.N
      = Cert.Lib.PlainDot.mm (R := 10000) (K := 512) (C := 32) (V c main_arg0) (V c main_arg2) :=
  (Cert.KernelIdeal.Region0.dat V c).arrAt_eq_of_cover 2 _ (fun t _ => flushed0_eq V c t) cover0

/-! ## Region 1: the 10000 x 32 hidden layer times the 32 x 16 weights -/

/-- The printed index maps, decided once over the five grid points: the left operand's and the output's blocks are
    the point's own block of 2000 rows, all columns; the right operand's block is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product: row p of the point's left block is row
    2000 t + p of the left array, and the right block is the whole right array, so the sum over the 32 shared
    positions at (p, q) of the block product is the sum at (2000 t + p, q) of the whole product. -/
theorem flushed1_eq (c : Dev nD) (t : Fin cfg1.N) :
    (Cert.KernelIdeal.Region1.dat V c).flushed 2 t
      = ((cfg1.win 2).blk t).view.read (Elt Ideal)
          (Cert.Lib.PlainDot.mm (R := 10000) (K := 32) (C := 16) (V c main_v14) (V c main_arg3)) := by
  show (cfg1.win 2).cut (grid1.coords t) ((Cert.KernelIdeal.Region1.dat V c).after 2 t) = _
  rw [Cert.KernelIdeal.Region1.after_2]
  unfold Cert.KernelIdeal.Region1.out
  rw [View.canon_unit_zero hz]
  simp only [View.ld_unit_zero (S := S2000x32) hz, View.ld_unit_zero (S := S32x16) hz]
  rw [pay1_eq]
  obtain ⟨e0, e1, e2, e3, e4, e5⟩ := idx_facts1 t
  funext j
  show Cert.Lib.PlainDot.mm (R := 2000) (K := 32) (C := 16) (Cert.KernelIdeal.Region1.iblk V c 0 t) (Cert.KernelIdeal.Region1.iblk V c 1 t) j
    = Cert.Lib.PlainDot.mm (R := 10000) (K := 32) (C := 16) (V c main_v14) (V c main_arg3) (((cfg1.win 2).blk t).view.emb j)
  refine mm_congr _ _ _ _ _ _ (fun k => ?_) (fun k => ?_)
  · -- the left block at (p, k) is the left array at (2000 t + p, k)
    show V c main_v14 (((cfg1.win 0).blk t).view.emb (Cert.Lib.PlainDot.rowIdx j k))
      = V c main_v14 (Cert.Lib.PlainDot.rowIdx (((cfg1.win 2).blk t).view.emb j) k)
    refine congrArg (V c main_v14) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 32 + 1 * k.val = k.val; omega
  · -- the right block at (k, q) is the right array at (k, q)
    show V c main_arg3 (((cfg1.win 1).blk t).view.emb (Cert.Lib.PlainDot.colIdx j k))
      = V c main_arg3 (Cert.Lib.PlainDot.colIdx (((cfg1.win 2).blk t).view.emb j) k)
    refine congrArg (V c main_arg3) (funext fun a => Fin.ext ?_)
    match a with
    | ⟨0, _⟩ => show win1_1.index t (0 : Fin 2) * 32 + 1 * k.val = k.val; omega
    | ⟨1, _⟩ => show win1_1.index t (1 : Fin 2) * 16 + 1 * (j 1).val = win1_2.index t (1 : Fin 2) * 16 + 1 * (j 1).val; omega

/-- An index of the output array is in point t's block iff each coordinate is in the block's range on its axis. -/
theorem mem_blk1 (t : Fin cfg1.N) (i : S10000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v15).slice (win1_2.rect t)).set ↔ _
  rw [View.set_slice_whole, Rect.mem_set_unit]
  exact Iff.rfl

/-- Row r of the output array lies in the block of point r / 2000. -/
theorem cover1 (i : S10000x16.Idx) :
    ∃ t : Fin cfg1.N, (cfg1.win 2).flush t = true ∧ i ∈ ((cfg1.win 2).blk t).view.set := by
  have hi0 : (i 0).val < 10000 := (i 0).isLt
  have hi1 : (i 1).val < 16 := (i 1).isLt
  have hN : grid1.N = 5 := N_1
  obtain ⟨t, ht⟩ : ∃ t : Fin cfg1.N, t.val = (i 0).val / 2000 := ⟨⟨(i 0).val / 2000, by show _ < grid1.N; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-- The region's output array after its five points is the whole product: every point writes its block of it, and
    the five blocks of 2000 rows cover the 10000 rows. -/
theorem arr1_eq (c : Dev nD) :
    (Cert.KernelIdeal.Region1.dat V c).arrAt 2 cfg1.N
      = Cert.Lib.PlainDot.mm (R := 10000) (K := 32) (C := 16) (V c main_v14) (V c main_arg3) :=
  (Cert.KernelIdeal.Region1.dat V c).arrAt_eq_of_cover 2 _ (fun t _ => flushed1_eq V c t) cover1

/-! ## Region 2: all inner products of the rows of the 10000 x 16 array -/

/-- The printed index maps, decided once over the 25 grid points: the left operand's and the output's blocks are the
    point's own block of 400 rows, all columns; the right operand's block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the array of all inner products: row p of the point's left block is row
    400 t + p of the array, and the right block is the whole array read along its rows, so the sum over the 16
    shared positions at (p, q) of the block's products is the sum at (400 t + p, q) of the whole array's. -/
theorem flushed2_eq (c : Dev nD) (t : Fin cfg2.N) :
    (Cert.KernelIdeal.Region2.dat V c).flushed 2 t
      = ((cfg2.win 2).blk t).view.read (Elt Ideal)
          (Cert.Lib.RowsDot.rowsDot (R := 10000) (K := 16) (C := 10000) (V c main_v28) (V c main_v28)) := by
  show (cfg2.win 2).cut (grid2.coords t) ((Cert.KernelIdeal.Region2.dat V c).after 2 t) = _
  rw [Cert.KernelIdeal.Region2.after_2]
  unfold Cert.KernelIdeal.Region2.out
  rw [View.canon_unit_zero hz]
  simp only [View.ld_unit_zero (S := S400x16) hz, View.ld_unit_zero (S := S10000x16) hz]
  rw [pay2_eq]
  obtain ⟨e0, e1, e2, e3, e4, e5⟩ := idx_facts2 t
  funext j
  show Cert.Lib.RowsDot.rowsDot (R := 400) (K := 16) (C := 10000) (Cert.KernelIdeal.Region2.iblk V c 0 t) (Cert.KernelIdeal.Region2.iblk V c 1 t) j
    = Cert.Lib.RowsDot.rowsDot (R := 10000) (K := 16) (C := 10000) (V c main_v28) (V c main_v28) (((cfg2.win 2).blk t).view.emb j)
  refine rows_congr _ _ _ _ _ _ (fun k => ?_) (fun k => ?_)
  · -- the left block at (p, k) is the array at (400 t + p, k)
    show V c main_v28 (((cfg2.win 0).blk t).view.emb (Cert.Lib.RowsDot.leftIdx j k))
      = V c main_v28 (Cert.Lib.RowsDot.leftIdx (((cfg2.win 2).blk t).view.emb j) k)
    refine congrArg (V c main_v28) (funext fun a => Fin.ext ?_)
    match a with
    | ⟨0, _⟩ => show win2_0.index t (0 : Fin 2) * 400 + 1 * (j 0).val = win2_2.index t (0 : Fin 2) * 400 + 1 * (j 0).val; omega
    | ⟨1, _⟩ => show win2_0.index t (1 : Fin 2) * 16 + 1 * k.val = k.val; omega
  · -- the right block at (q, k) is the array at (q, k)
    show V c main_v28 (((cfg2.win 1).blk t).view.emb (Cert.Lib.RowsDot.rightIdx j k))
      = V c main_v28 (Cert.Lib.RowsDot.rightIdx (((cfg2.win 2).blk t).view.emb j) k)
    refine congrArg (V c main_v28) (funext fun a => Fin.ext ?_)
    match a with
    | ⟨0, _⟩ => show win2_1.index t (0 : Fin 2) * 10000 + 1 * (j 1).val = win2_2.index t (1 : Fin 2) * 10000 + 1 * (j 1).val; omega
    | ⟨1, _⟩ => show win2_1.index t (1 : Fin 2) * 16 + 1 * k.val = k.val; omega

/-- An index of the output array is in point t's block iff each coordinate is in the block's range on its axis. -/
theorem mem_blk2 (t : Fin cfg2.N) (i : S10000x10000.Idx) :
    i ∈ ((cfg2.win 2).blk t).view.set ↔ ∀ a : Fin 2, win2_2.index t a * S400x10000.size a ≤ (i a).val ∧ (i a).val < win2_2.index t a * S400x10000.size a + S400x10000.size a := by
  show i ∈ ((View.whole main_v29).slice (win2_2.rect t)).set ↔ _
  rw [View.set_slice_whole, Rect.mem_set_unit]
  exact Iff.rfl

/-- Row r of the output array lies in the block of point r / 400. -/
theorem cover2 (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  have hN : grid2.N = 25 := N_2
  obtain ⟨t, ht⟩ : ∃ t : Fin cfg2.N, t.val = (i 0).val / 400 := ⟨⟨(i 0).val / 400, by show _ < grid2.N; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 10000 ≤ (i 1).val ∧ (i 1).val < win2_2.index t (1 : Fin 2) * 10000 + 10000; omega

/-- The region's output array after its 25 points is the array of all inner products: every point writes its block
    of it, and the 25 blocks of 400 rows cover the 10000 rows. -/
theorem arr2_eq (c : Dev nD) :
    (Cert.KernelIdeal.Region2.dat V c).arrAt 2 cfg2.N
      = Cert.Lib.RowsDot.rowsDot (R := 10000) (K := 16) (C := 10000) (V c main_v28) (V c main_v28) :=
  (Cert.KernelIdeal.Region2.dat V c).arrAt_eq_of_cover 2 _ (fun t _ => flushed2_eq V c t) cover2

end Cert.KernelIdeal.Blocks

end
-- ==== Proof.Spec.lean ====
/-
  The function both programs compute, at the ideal values.

  A two-layer graph convolution followed by an inner-product decoder.  With X the node features, W1 and W2 the layer
  weights, and the graph given as an edge list (weight e_w, destination e_r, source e_c, a negative source index
  wrapped by the node count 10000):

    aggregate h = the array whose row n is the sum, over the edges with destination n, of e_w times row (source) of h
    H1 = max (aggregate (X · W1)) 0
    Z  = aggregate (H1 · W2)
    result = the 10000 × 10000 array of inner products  Z (r, ·) · Z (c, ·),  flattened row by row.

  Each matrix product is written as its sum over the contracted index (the definitions of the two product modules);
  the aggregation is kept as the host program's own gather, multiply and scatter-add, which both programs share
  word for word and which is never opened.
-/
import proofs.«127594_j31439160606755_1_alg».proof.KernelIdeal
import proofs.«127594_j31439160606755_1_alg».proof.Proof.LibPlainDot
import proofs.«127594_j31439160606755_1_alg».proof.Proof.LibRowsDot

noncomputable section

namespace Cert.Spec

open Idealize.ShloMosaic Cert.KernelIdeal Cert.KernelIdeal.Facts₀ Cert.KernelIdeal.Facts

variable [Cert.KernelIdeal.Facts]

/-- The edges' source rows as gather indices: a negative index is wrapped by the node count. -/
def sources (e_c : (⟨S320000, .i32⟩ : BufTy).Contents (Elt Ideal)) : (⟨S320000x1, .i32⟩ : BufTy).Contents (Elt Ideal) :=
  broadcastInDim S320000x1 ![0] bcast_S320000_S320000x1_0
    (select (cmpi .slt e_c (broadcastInDim S320000 ![] bcast_S_S320000 (constantI S_ 32 0#32)))
      (addi e_c (broadcastInDim S320000 ![] bcast_S_S320000 (constantI S_ 32 10000#32))) e_c)

/-- Row n of the result is the sum over the edges into n of the edge weight times the source's row, 32 columns. -/
def aggregate32 (e_w : FVec Ideal S320000 .f32) (e_r e_c : (⟨S320000, .i32⟩ : BufTy).Contents (Elt Ideal))
    (h : FVec Ideal S10000x32 .f32) : FVec Ideal S10000x32 .f32 :=
  Host.scatterAdd (F := Ideal) scatter_S10000x32_S320000x1_S320000x32_1_0_0_1
    (broadcastInDim S10000x32 ![] bcast_S_S10000x32 (constant (F := Ideal) S_ .f32 0x00000000#32))
    (broadcastInDim S320000x1 ![0] bcast_S320000_S320000x1_0 e_r)
    (mulf (broadcastInDim S320000x32 ![0, 1] bcast_S320000x1_S320000x32_0_1 (broadcastInDim S320000x1 ![0] bcast_S320000_S320000x1_0 e_w))
      (Host.gather gather_S10000x32_S320000x1_S320000x32_1_0_n_n_0_1_132 h (sources e_c)))

/-- The same aggregation on 16 columns. -/
def aggregate16 (e_w : FVec Ideal S320000 .f32) (e_r e_c : (⟨S320000, .i32⟩ : BufTy).Contents (Elt Ideal))
    (h : FVec Ideal S10000x16 .f32) : FVec Ideal S10000x16 .f32 :=
  Host.scatterAdd (F := Ideal) scatter_S10000x16_S320000x1_S320000x16_1_0_0_1
    (broadcastInDim S10000x16 ![] bcast_S_S10000x16 (constant (F := Ideal) S_ .f32 0x00000000#32))
    (broadcastInDim S320000x1 ![0] bcast_S320000_S320000x1_0 e_r)
    (mulf (broadcastInDim S320000x16 ![0, 1] bcast_S320000x1_S320000x16_0_1 (broadcastInDim S320000x1 ![0] bcast_S320000_S320000x1_0 e_w))
      (Host.gather gather_S10000x16_S320000x1_S320000x16_1_0_n_n_0_1_116 h (sources e_c)))

/-- The maximum with zero, entry by entry. -/
def relu32 (h : FVec Ideal S10000x32 .f32) : FVec Ideal S10000x32 .f32 :=
  maximumf h (broadcastInDim S10000x32 ![] bcast_S_S10000x32 (constant (F := Ideal) S_ .f32 0x00000000#32))

/-- The first layer's output. -/
def hidden (x : FVec Ideal S10000x512 .f32) (e_w : FVec Ideal S320000 .f32) (w1 : FVec Ideal S512x32 .f32)
    (e_r e_c : (⟨S320000, .i32⟩ : BufTy).Contents (Elt Ideal)) : FVec Ideal S10000x32 .f32 :=
  relu32 (aggregate32 e_w e_r e_c (Cert.Lib.PlainDot.mm (R := 10000) (K := 512) (C := 32) x w1))

/-- The embedding Z. -/
def embedding (x : FVec Ideal S10000x512 .f32) (e_w : FVec Ideal S320000 .f32) (w1 : FVec Ideal S512x32 .f32)
    (w2 : FVec Ideal S32x16 .f32) (e_r e_c : (⟨S320000, .i32⟩ : BufTy).Contents (Elt Ideal)) : FVec Ideal S10000x16 .f32 :=
  aggregate16 e_w e_r e_c (Cert.Lib.PlainDot.mm (R := 10000) (K := 32) (C := 16) (hidden x e_w w1 e_r e_c) w2)

/-- All inner products of the embedding's rows, as a 10000 × 10000 array. -/
def gram (z : FVec Ideal S10000x16 .f32) : FVec Ideal S10000x10000 .f32 :=
  Cert.Lib.RowsDot.rowsDot (R := 10000) (K := 16) (C := 10000) z z

/-- The result: the array of inner products, flattened. -/
def result (x : FVec Ideal S10000x512 .f32) (e_w : FVec Ideal S320000 .f32) (w1 : FVec Ideal S512x32 .f32)
    (w2 : FVec Ideal S32x16 .f32) (e_r e_c : (⟨S320000, .i32⟩ : BufTy).Contents (Elt Ideal)) : FVec Ideal S100000000 .f32 :=
  shapeCast S100000000 (gram (embedding x e_w w1 w2 e_r e_c)) shapeCasts_S10000x10000_S100000000

end Cert.Spec

end
-- ==== Proof.KIValue.lean ====
/-
  What the program leaves in its result buffer, at the ideal values.

  Read back from the last contents, item by item: the flattening of region 2's output array; that array is the array
  of inner products of the rows of the embedding (the blocks of 400 rows put together); the embedding is the second
  aggregation of region 1's output array, the product of the first layer's output with W2 (blocks of 2000 rows put
  together); the first layer's output is the maximum with zero of the first aggregation of region 0's output array,
  the product X · W1.  The edge list and the weights are read where no item has written.  Put together this is the
  specification's result of the launch arrays.
-/
import proofs.«127594_j31439160606755_1_alg».proof.Proof.KIVals
import proofs.«127594_j31439160606755_1_alg».proof.Proof.KIBlocks
import proofs.«127594_j31439160606755_1_alg».proof.Proof.Spec
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe
open Idealize.SL Idealize.SL.Sem
open RegionRecord (tcVal)

variable (m : (ℓ : Loc nD τ sig) → Buf (Elt Ideal) ℓ)

/-- A buffer that neither region 0 nor the first two host stretches write holds its launch contents after them. -/
theorem W3_untouched (c : Dev nD) (r : Ref sig .tc) (h0 : r ≠ main_v0) (h1 : r ∉ hostOps1_W) (h2 : r ∉ hostOps1_1_W) :
    W3 m c r = m ((c : Thread nD τ).loc r) :=
  (W3_of m c r h2).trans <| (W2_of m c r h1).trans <| (W1_of m c r h0).trans rfl
/-- The same up to the second aggregation's entry. -/
theorem W4_untouched (c : Dev nD) (r : Ref sig .tc) (h0 : r ≠ main_v0) (h1 : r ∉ hostOps1_W) (h2 : r ∉ hostOps1_1_W) (h3 : r ≠ main_v15) :
    W4 m c r = m ((c : Thread nD τ).loc r) :=
  (W4_of m c r h3).trans (W3_untouched m c r h0 h1 h2)

/-- After region 0 its output array holds the first product of the launch arrays. -/
theorem first_product (c : Dev nD) :
    (W1 m c main_v0 : FVec Ideal S10000x32 .f32)
      = Cert.Lib.PlainDot.mm (R := 10000) (K := 512) (C := 32) (m ((c : Thread nD τ).loc main_arg0)) (m ((c : Thread nD τ).loc main_arg2)) :=
  (W1_out m c).trans (Cert.KernelIdeal.Blocks.arr0_eq (tcVal (W0 m)) c)

/-- After the first aggregation and the maximum with zero: the first layer's output. -/
theorem hidden_eq (c : Dev nD) :
    (W3 m c main_v14 : FVec Ideal S10000x32 .f32)
      = Cert.Spec.hidden (m ((c : Thread nD τ).loc main_arg0)) (m ((c : Thread nD τ).loc main_arg1)) (m ((c : Thread nD τ).loc main_arg2))
          (m ((c : Thread nD τ).loc main_arg4)) (m ((c : Thread nD τ).loc main_arg5)) := by
  have e13 : (W2 m c main_v13 : FVec Ideal S10000x32 .f32)
      = Cert.Spec.aggregate32 (W1 m c main_arg1) (W1 m c main_arg4) (W1 m c main_arg5) (W1 m c main_v0) := by
    show StableHlo.after hostOps1 (W1 m c) (Proc.devRef .tc main_v13) = _
    after_results
    rfl
  have e14 : (W3 m c main_v14 : FVec Ideal S10000x32 .f32) = Cert.Spec.relu32 (W2 m c main_v13) := by
    show StableHlo.after hostOps1_1 (W2 m c) (Proc.devRef .tc main_v14) = _
    after_results
    rfl
  rw [e14, e13, first_product m c, W1_of m c main_arg1 (by decide), W1_of m c main_arg4 (by decide), W1_of m c main_arg5 (by decide)]
  rfl

/-- After region 1 and the second aggregation: the embedding. -/
theorem embedding_eq (c : Dev nD) :
    (W5 m c main_v28 : FVec Ideal S10000x16 .f32)
      = Cert.Spec.embedding (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e28 : (W5 m c main_v28 : FVec Ideal S10000x16 .f32)
      = Cert.Spec.aggregate16 (W4 m c main_arg1) (W4 m c main_arg4) (W4 m c main_arg5) (W4 m c main_v15) := by
    show StableHlo.after hostOps2 (W4 m c) (Proc.devRef .tc main_v28) = _
    after_results
    rfl
  have e15 : (W4 m c main_v15 : FVec Ideal S10000x16 .f32)
      = Cert.Lib.PlainDot.mm (R := 10000) (K := 32) (C := 16) (W3 m c main_v14) (W3 m c main_arg3) :=
    (W4_out m c).trans (Cert.KernelIdeal.Blocks.arr1_eq (tcVal (W3 m)) c)
  rw [e28, e15, hidden_eq m c, W3_untouched m c main_arg3 (by decide) (by decide) (by decide),
    W4_untouched m c main_arg1 (by decide) (by decide) (by decide) (by decide),
    W4_untouched m c main_arg4 (by decide) (by decide) (by decide) (by decide),
    W4_untouched m c main_arg5 (by decide) (by decide) (by decide) (by decide)]
  rfl

/-- At the end the result buffer holds the specification's result of the launch arrays. -/
theorem result_eq (c : Dev nD) :
    (W7 m c main_v30 : FVec Ideal S100000000 .f32)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e30 : (W7 m c main_v30 : FVec Ideal S100000000 .f32)
      = shapeCast S100000000 (W6 m c main_v29 : FVec Ideal S10000x10000 .f32) shapeCasts_S10000x10000_S100000000 := by
    show StableHlo.after hostOps3 (W6 m c) (Proc.devRef .tc main_v30) = _
    after_results
    rfl
  have e29 : (W6 m c main_v29 : FVec Ideal S10000x10000 .f32) = Cert.Spec.gram (W5 m c main_v28) :=
    (W6_out m c).trans (Cert.KernelIdeal.Blocks.arr2_eq (tcVal (W5 m)) c)
  rw [e30, e29, embedding_eq m c]
  rfl

end Cert.KernelIdeal.Run

end
-- ==== Proof.RefIsSpec.lean ====
/-
  The reference program's result is the specified function of its six arguments, at the ideal values.

  The reference computes   flatten ( Z · transpose Z )   with   Z = aggregate (max (aggregate (X · W1)) 0 · W2),
  its three products by the host's dot_general.  At the ideal values each dot_general is the plain sum over the
  contracted index; for the last one, the transpose of Z at (k, c) is Z at (c, k), so the product at (r, c) is the
  sum over k < 16 of Z (r, k) * Z (c, k): the inner product of rows r and c.  Everything else — the gathers, the
  multiplication by the edge weights, the scatter-adds, the maximum with zero, the final flattening — is the same
  sequence of host operations in the reference and in the specification and is compared as it stands, never opened.
-/
import proofs.«127594_j31439160606755_1_alg».proof.Proof.Gen.ReferenceIdeal.Run
import proofs.«127594_j31439160606755_1_alg».proof.Proof.Spec
import Idealize.ShloMosaic.Lib.Pipeline.Value

noncomputable section

namespace Cert.Bridge

open Idealize.ShloMosaic Idealize.ShloMosaic.TcCoe Idealize.SL.Sem

variable [Cert.KernelIdeal.Facts] [Cert.ReferenceIdeal.Facts]

section Products
open Cert.ReferenceIdeal Cert.ReferenceIdeal.Facts₀ Cert.ReferenceIdeal.Facts

/-- The first host product: at (r, c), the sum over k < 512 of x (r, k) * w (k, c). -/
theorem ref_dot0 (x : FVec Ideal S10000x512 .f32) (w : FVec Ideal S512x32 .f32) :
    Host.dotGeneral (F := Ideal) dot_S10000x512_S512x32_S10000x32_1_0_0_1_n_n none x w
      = Cert.Lib.PlainDot.mm (R := 10000) (K := 512) (C := 32) x w :=
  funext fun j => Cert.Lib.PlainDot.dotGeneral_apply (R := 10000) (K := 512) (C := 32)
    dot_S10000x512_S512x32_S10000x32_1_0_0_1_n_n rfl none .single x w j

/-- The second host product: at (r, c), the sum over k < 32 of h (r, k) * w (k, c). -/
theorem ref_dot1 (h : FVec Ideal S10000x32 .f32) (w : FVec Ideal S32x16 .f32) :
    Host.dotGeneral (F := Ideal) dot_S10000x32_S32x16_S10000x16_1_0_0_1_n_n none h w
      = Cert.Lib.PlainDot.mm (R := 10000) (K := 32) (C := 16) h w :=
  funext fun j => Cert.Lib.PlainDot.dotGeneral_apply (R := 10000) (K := 32) (C := 16)
    dot_S10000x32_S32x16_S10000x16_1_0_0_1_n_n rfl none .single h w j

/-- The third host product, of z with its own transpose: at (r, c) it is the sum over k < 16 of
    z (r, k) * (transpose z) (k, c), and the transpose at (k, c) is z at (c, k); so it is the sum over k of
    z (r, k) * z (c, k). -/
theorem ref_dot2 (z : FVec Ideal S10000x16 .f32) :
    Host.dotGeneral (F := Ideal) dot_S10000x16_S16x10000_S10000x10000_1_0_0_1_n_n none z
        (transpose S16x10000 [1, 0] z transposes_S10000x16_S16x10000_1_0)
      = Cert.Lib.RowsDot.rowsDot (R := 10000) (K := 16) (C := 10000) z z := by
  funext j
  refine (Cert.Lib.PlainDot.dotGeneral_apply (R := 10000) (K := 16) (C := 10000)
    dot_S10000x16_S16x10000_S10000x10000_1_0_0_1_n_n rfl none .single z
    (transpose S16x10000 [1, 0] z transposes_S10000x16_S16x10000_1_0) j).trans ?_
  unfold Cert.Lib.PlainDot.mm Cert.Lib.RowsDot.rowsDot
  refine Finset.sum_congr rfl fun k _ => ?_
  -- the transposed operand at (k, c) is the operand at (c, k)
  have ht : transpose S16x10000 [1, 0] z transposes_S10000x16_S16x10000_1_0 (Cert.Lib.PlainDot.colIdx j k)
      = z (Cert.Lib.RowsDot.rightIdx j k) :=
    transpose_apply [1, 0] z transposes_S10000x16_S16x10000_1_0 (Cert.Lib.PlainDot.colIdx j k)
      (Cert.Lib.RowsDot.rightIdx j k) (fun b => match b with
        | ⟨0, _⟩ => rfl
        | ⟨1, _⟩ => rfl)
  -- the left operand is read at (r, k) in both forms
  have hl : Cert.Lib.PlainDot.rowIdx (K := 16) j k = Cert.Lib.RowsDot.leftIdx (K := 16) j k :=
    funext fun a => Fin.ext (by match a with | ⟨0, _⟩ => rfl | ⟨1, _⟩ => rfl)
  rw [ht, hl]

end Products

/-- The reference's result, one nested term of the six arguments, is the specified function of them: its three
    products are rewritten to their sums, and what remains is the specification's own chain of host operations,
    term for term (the shape and the dimension records of the two programs differ only in how they are named). -/
theorem ref_is_spec (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v31 (F := Ideal) m' c
      = Cert.Spec.result
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  unfold Cert.ReferenceIdeal.Value.res_main_v31
  rw [ref_dot0, ref_dot1, ref_dot2]
  unfold Cert.Spec.result Cert.Spec.gram Cert.Spec.embedding Cert.Spec.aggregate16 Cert.Spec.hidden Cert.Spec.relu32
    Cert.Spec.aggregate32 Cert.Spec.sources
  rfl

end Cert.Bridge

end
-- ==== Proof.lean ====
/-
  A two-layer graph convolution with an inner-product decoder: the kernel program against its plain reference.

  Both programs aggregate over the same edge list with the same host operations; they differ only in how the three
  matrix products are computed.  The reference forms X · W1, H1 · W2 and Z · Zᵀ by whole-array products (the last after
  transposing Z).  The kernel program forms each in a grid of kernel calls: X · W1 and H1 · W2 in five blocks of 2000
  rows of the left operand against the whole right operand, and Z · Zᵀ in twenty-five blocks of 400 rows of Z against
  all of Z, which it reads along its rows; each call is a matrix product into a zero accumulator, written over its
  output block.  At the ideal values a product into a zero accumulator, a whole-array product and a product with a
  transposed operand are all the same sums over the contracted index, and row blocks put together are the whole
  array, so both programs end with the specification's result (Spec.lean) — no property of the inputs is needed, and
  the precondition is never opened.

  The frames: the reference is host operations only, and its generated run ends with the arguments unchanged.  The
  kernel program, in both its printed forms, is run item by item (three kernel regions among four stretches of host
  operations); no item writes an argument array.  The idealisation rewrote nothing, so it preserves the program
  trivially.
-/
import proofs.«127594_j31439160606755_1_alg».proof.Defs
import proofs.«127594_j31439160606755_1_alg».proof.Proof.Gen.Kernel
import proofs.«127594_j31439160606755_1_alg».proof.Proof.Gen.KernelIdeal
import proofs.«127594_j31439160606755_1_alg».proof.Proof.Gen.ReferenceIdeal
import proofs.«127594_j31439160606755_1_alg».proof.Proof.Gen.ReferenceIdeal.Run
import proofs.«127594_j31439160606755_1_alg».proof.Proof.Gen.ReferenceIdeal.Read
import proofs.«127594_j31439160606755_1_alg».proof.Proof.Gen.Pre_finite_inputs
import proofs.«127594_j31439160606755_1_alg».proof.Proof.KRun
import proofs.«127594_j31439160606755_1_alg».proof.Proof.KIRun
import proofs.«127594_j31439160606755_1_alg».proof.Proof.KIValue
import proofs.«127594_j31439160606755_1_alg».proof.Proof.RefIsSpec
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Run.frame m ρ

/-- So does its idealised form. -/
theorem frame_kernel_ideal : Cert.frame_KernelIdeal := fun m ρ _ => Cert.KernelIdeal.Run.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- The idealised kernel program ends with its result buffer at the specification's result of the launch arrays. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v30) = Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.KernelIdeal.Run.result_eq m c), (h c).2⟩)
    (Cert.KernelIdeal.Run.run_result m ρ)

/-- From memories that agree on the arguments both idealised programs end with equal results: each is the
    specification's result of the same arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Bridge.ref_is_spec m' c, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
